-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  IdealRules.truncf_extf.Statement Cert.KernelIdeal.S512x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S2048x64 : Shape := ⟨2, ![2048, 64]⟩
abbrev S2048 : Shape := ⟨1, ![2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S64x512 : Shape := ⟨2, ![64, 512]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg18 : FVec F S1024 .f32) (main_arg22 : FVec F S512 .f32) (main_arg26 : FVec F S64 .f32) (main_v133 : IVec S_ 1) (main_v135 : IVec S2048 1) (main_c_53 : IVec S_ 1) : IVec S_ 1 :=
  let main_v136 : IVec S_ 1 := (fun x v => Host.reduce IntOp.andi x v reducesTo_S2048_S_d0 h_S_) main_v135 main_c_53
  let main_v137 : IVec S_ 1 := andi main_v133 main_v136
  let main_cst_54 : FVec F S_ .f32 := constant S_ .f32 0x00000000#32
  let main_v138 : FVec F S1024 .f32 := broadcastInDim S1024 ![] bcast_S_S1024 main_cst_54
  let main_v139 : IVec S1024 1 := cmpf .oge main_arg18 main_v138
  let main_c_55 : IVec S_ 1 := constantI S_ 1 1#1
  let main_v140 : IVec S_ 1 := (fun x v => Host.reduce IntOp.andi x v reducesTo_S1024_S_d0 h_S_) main_v139 main_c_55
  let main_v141 : IVec S_ 1 := andi main_v137 main_v140
  let main_cst_56 : FVec F S_ .f32 := constant S_ .f32 0x00000000#32
  let main_v142 : FVec F S512 .f32 := broadcastInDim S512 ![] bcast_S_S512 main_cst_56
  let main_v143 : IVec S512 1 := cmpf .oge main_arg22 main_v142
  let main_c_57 : IVec S_ 1 := constantI S_ 1 1#1
  let main_v144 : IVec S_ 1 := (fun x v => Host.reduce IntOp.andi x v reducesTo_S512_S_d0 h_S_) main_v143 main_c_57
  let main_v145 : IVec S_ 1 := andi main_v141 main_v144
  let main_cst_58 : FVec F S_ .f32 := constant S_ .f32 0x00000000#32
  let main_v146 : FVec F S64 .f32 := broadcastInDim S64 ![] bcast_S_S64 main_cst_58
  let main_v147 : IVec S64 1 := cmpf .oge main_arg26 main_v146
  let main_c_59 : IVec S_ 1 := constantI S_ 1 1#1
  let main_v148 : IVec S_ 1 := (fun x v => Host.reduce IntOp.andi x v reducesTo_S64_S_d0 h_S_) main_v147 main_c_59
  let main_v149 : IVec S_ 1 := andi main_v145 main_v148
  main_v149

def fn_part7 {F : FTy → Type} [FloatOps F] (main_arg14 : FVec F S2048 .f32) (main_arg18 : FVec F S1024 .f32) (main_arg22 : FVec F S512 .f32) (main_arg25 : FVec F S64 .f32) (main_arg26 : FVec F S64 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg25
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64 .f32 := Host.absf main_arg26
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_cst_52 : FVec F S_ .f32 := constant S_ .f32 0x00000000#32
  let main_v134 : FVec F S2048 .f32 := broadcastInDim S2048 ![] bcast_S_S2048 main_cst_52
  let main_v135 : IVec S2048 1 := cmpf .oge main_arg14 main_v134
  let main_c_53 : IVec S_ 1 := constantI S_ 1 1#1
  fn_part8 (F := F) main_arg18 main_arg22 main_arg26 main_v133 main_v135 main_c_53

def fn_part6 {F : FTy → Type} [FloatOps F] (main_arg14 : FVec F S2048 .f32) (main_arg18 : FVec F S1024 .f32) (main_arg21 : FVec F S512 .f32) (main_arg22 : FVec F S512 .f32) (main_arg23 : FVec F S64 .f32) (main_arg24 : FVec F S64 .f32) (main_arg25 : FVec F S64 .f32) (main_arg26 : FVec F S64 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512 .f32 := Host.absf main_arg22
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S64 .f32 := Host.absf main_arg23
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64 .f32 := Host.absf main_arg24
  fn_part7 (F := F) main_arg14 main_arg18 main_arg22 main_arg25 main_arg26 main_v118 main_v119

def fn_part5 {F : FTy → Type} [FloatOps F] (main_arg14 : FVec F S2048 .f32) (main_arg18 : FVec F S1024 .f32) (main_arg19 : FVec F S512 .f32) (main_arg20 : FVec F S512 .f32) (main_arg21 : FVec F S512 .f32) (main_arg22 : FVec F S512 .f32) (main_arg23 : FVec F S64 .f32) (main_arg24 : FVec F S64 .f32) (main_arg25 : FVec F S64 .f32) (main_arg26 : FVec F S64 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg14 main_arg18 main_arg21 main_arg22 main_arg23 main_arg24 main_arg25 main_arg26 main_v98 main_v101 main_c_39

def fn_part4 {F : FTy → Type} [FloatOps F] (main_arg14 : FVec F S2048 .f32) (main_arg15 : FVec F S1024 .f32) (main_arg16 : FVec F S1024 .f32) (main_arg17 : FVec F S1024 .f32) (main_arg18 : FVec F S1024 .f32) (main_arg19 : FVec F S512 .f32) (main_arg20 : FVec F S512 .f32) (main_arg21 : FVec F S512 .f32) (main_arg22 : FVec F S512 .f32) (main_arg23 : FVec F S64 .f32) (main_arg24 : FVec F S64 .f32) (main_arg25 : FVec F S64 .f32) (main_arg26 : FVec F S64 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg14 main_arg18 main_arg19 main_arg20 main_arg21 main_arg22 main_arg23 main_arg24 main_arg25 main_arg26 main_v83 main_v84 main_cst_32

def fn_part3 {F : FTy → Type} [FloatOps F] (main_arg11 : FVec F S2048 .f32) (main_arg12 : FVec F S2048 .f32) (main_arg13 : FVec F S2048 .f32) (main_arg14 : FVec F S2048 .f32) (main_arg15 : FVec F S1024 .f32) (main_arg16 : FVec F S1024 .f32) (main_arg17 : FVec F S1024 .f32) (main_arg18 : FVec F S1024 .f32) (main_arg19 : FVec F S512 .f32) (main_arg20 : FVec F S512 .f32) (main_arg21 : FVec F S512 .f32) (main_arg22 : FVec F S512 .f32) (main_arg23 : FVec F S64 .f32) (main_arg24 : FVec F S64 .f32) (main_arg25 : FVec F S64 .f32) (main_arg26 : FVec F S64 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S64x512 .f32) (main_arg8 : FVec F S64 .f32) (main_arg9 : FVec F S1x64 .f32) (main_arg10 : FVec F S1 .f32) (main_arg11 : FVec F S2048 .f32) (main_arg12 : FVec F S2048 .f32) (main_arg13 : FVec F S2048 .f32) (main_arg14 : FVec F S2048 .f32) (main_arg15 : FVec F S1024 .f32) (main_arg16 : FVec F S1024 .f32) (main_arg17 : FVec F S1024 .f32) (main_arg18 : FVec F S1024 .f32) (main_arg19 : FVec F S512 .f32) (main_arg20 : FVec F S512 .f32) (main_arg21 : FVec F S512 .f32) (main_arg22 : FVec F S512 .f32) (main_arg23 : FVec F S64 .f32) (main_arg24 : FVec F S64 .f32) (main_arg25 : FVec F S64 .f32) (main_arg26 : FVec F S64 .f32) (main_v33 : IVec S_ 1) : IVec S_ 1 :=
  let main_v34 : FVec F S64x512 .f32 := Host.absf main_arg7
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S1024 .f32) (main_arg5 : FVec F S512x1024 .f32) (main_arg6 : FVec F S512 .f32) (main_arg7 : FVec F S64x512 .f32) (main_arg8 : FVec F S64 .f32) (main_arg9 : FVec F S1x64 .f32) (main_arg10 : FVec F S1 .f32) (main_arg11 : FVec F S2048 .f32) (main_arg12 : FVec F S2048 .f32) (main_arg13 : FVec F S2048 .f32) (main_arg14 : FVec F S2048 .f32) (main_arg15 : FVec F S1024 .f32) (main_arg16 : FVec F S1024 .f32) (main_arg17 : FVec F S1024 .f32) (main_arg18 : FVec F S1024 .f32) (main_arg19 : FVec F S512 .f32) (main_arg20 : FVec F S512 .f32) (main_arg21 : FVec F S512 .f32) (main_arg22 : FVec F S512 .f32) (main_arg23 : FVec F S64 .f32) (main_arg24 : FVec F S64 .f32) (main_arg25 : FVec F S64 .f32) (main_arg26 : FVec F S64 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S32768x64 .f32) (main_arg1 : FVec F S2048x64 .f32) (main_arg2 : FVec F S2048 .f32) (main_arg3 : FVec F S1024x2048 .f32) (main_arg4 : FVec F S1024 .f32) (main_arg5 : FVec F S512x1024 .f32) (main_arg6 : FVec F S512 .f32) (main_arg7 : FVec F S64x512 .f32) (main_arg8 : FVec F S64 .f32) (main_arg9 : FVec F S1x64 .f32) (main_arg10 : FVec F S1 .f32) (main_arg11 : FVec F S2048 .f32) (main_arg12 : FVec F S2048 .f32) (main_arg13 : FVec F S2048 .f32) (main_arg14 : FVec F S2048 .f32) (main_arg15 : FVec F S1024 .f32) (main_arg16 : FVec F S1024 .f32) (main_arg17 : FVec F S1024 .f32) (main_arg18 : FVec F S1024 .f32) (main_arg19 : FVec F S512 .f32) (main_arg20 : FVec F S512 .f32) (main_arg21 : FVec F S512 .f32) (main_arg22 : FVec F S512 .f32) (main_arg23 : FVec F S64 .f32) (main_arg24 : FVec F S64 .f32) (main_arg25 : FVec F S64 .f32) (main_arg26 : FVec F S64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S32768x64 : Shape := ⟨2, ![32768, 64]⟩
abbrev S2048x64 : Shape := ⟨2, ![2048, 64]⟩
abbrev S2048 : Shape := ⟨1, ![2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S64x512 : Shape := ⟨2, ![64, 512]⟩
abbrev S64 : Shape := ⟨1, ![64]⟩
abbrev S1x64 : Shape := ⟨2, ![1, 64]⟩
abbrev S1 : Shape := ⟨1, ![1]⟩
abbrev S64x2048 : Shape := ⟨2, ![64, 2048]⟩
abbrev S2048x1024 : Shape := ⟨2, ![2048, 1024]⟩
abbrev S1024x512 : Shape := ⟨2, ![1024, 512]⟩
abbrev S512x64 : Shape := ⟨2, ![512, 64]⟩
abbrev S1x1 : Shape := ⟨2, ![1, 1]⟩
abbrev S_ : Shape := ⟨0, ![]⟩
abbrev S1x2048 : Shape := ⟨2, ![1, 2048]⟩
abbrev S1x1024 : Shape := ⟨2, ![1, 1024]⟩
abbrev S1x512 : Shape := ⟨2, ![1, 512]⟩
abbrev S32768x1 : Shape := ⟨2, ![32768, 1]⟩
abbrev S512x1 : Shape := ⟨2, ![512, 1]⟩
abbrev S512x2048 : Shape := ⟨2, ![512, 2048]⟩
abbrev S512x512 : Shape := ⟨2, ![512, 512]⟩

abbrev nBuf : Space → Nat
  | .hbm => 80
  | .vmem => 18
  | .smem => 0
  | _ => 0

abbrev bufTy : (tb : Table) → Fin (tcTables nBuf tb) → BufTy
  | .hbm, ⟨0, _⟩ => ⟨S32768x64, .f32⟩
  | .hbm, ⟨1, _⟩ => ⟨S2048x64, .f32⟩
  | .hbm, ⟨2, _⟩ => ⟨S2048, .f32⟩
  | .hbm, ⟨3, _⟩ => ⟨S1024x2048, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S64x512, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S2048x64, .f32⟩
  | .hbm, ⟨28, _⟩ => ⟨S64x2048, .f32⟩
  | .hbm, ⟨29, _⟩ => ⟨S1024x2048, .f32⟩
  | .hbm, ⟨30, _⟩ => ⟨S2048x1024, .f32⟩
  | .hbm, ⟨31, _⟩ => ⟨S2048x1024, .bf16⟩
  | .hbm, ⟨32, _⟩ => ⟨S512x1024, .f32⟩
  | .hbm, ⟨33, _⟩ => ⟨S1024x512, .f32⟩
  | .hbm, ⟨34, _⟩ => ⟨S1024x512, .bf16⟩
  | .hbm, ⟨35, _⟩ => ⟨S64x512, .f32⟩
  | .hbm, ⟨36, _⟩ => ⟨S512x64, .f32⟩
  | .hbm, ⟨37, _⟩ => ⟨S512x64, .bf16⟩
  | .hbm, ⟨38, _⟩ => ⟨S1x1, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S1x2048, .f32⟩
  | .hbm, ⟨48, _⟩ => ⟨S1x2048, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S512, .f32⟩
  | .hbm, ⟨65, _⟩ => ⟨S512, .f32⟩
  | .hbm, ⟨66, _⟩ => ⟨S512, .f32⟩
  | .hbm, ⟨67, _⟩ => ⟨S1x512, .f32⟩
  | .hbm, ⟨68, _⟩ => ⟨S1x512, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S64, .f32⟩
  | .hbm, ⟨77, _⟩ => ⟨S1x64, .f32⟩
  | .hbm, ⟨78, _⟩ => ⟨S1x64, .f32⟩
  | .hbm, ⟨79, _⟩ => ⟨S32768x1, .f32⟩
  | .local _ .vmem, ⟨0, _⟩ => ⟨S512x64, .f32⟩
  | .local _ .vmem, ⟨1, _⟩ => ⟨S512x64, .f32⟩
  | .local _ .vmem, ⟨2, _⟩ => ⟨S64x2048, .f32⟩
  | .local _ .vmem, ⟨3, _⟩ => ⟨S2048x1024, .bf16⟩
  | .local _ .vmem, ⟨4, _⟩ => ⟨S1024x512, .bf16⟩
  | .local _ .vmem, ⟨5, _⟩ => ⟨S512x64, .bf16⟩
  | .local _ .vmem, ⟨6, _⟩ => ⟨S1x64, .f32⟩
  | .local _ .vmem, ⟨7, _⟩ => ⟨S1x1, .f32⟩
  | .local _ .vmem, ⟨8, _⟩ => ⟨S1x2048, .f32⟩
  | .local _ .vmem, ⟨9, _⟩ => ⟨S1x2048, .f32⟩
  | .local _ .vmem, ⟨10, _⟩ => ⟨S1x1024, .f32⟩
  | .local _ .vmem, ⟨11, _⟩ => ⟨S1x1024, .f32⟩
  | .local _ .vmem, ⟨12, _⟩ => ⟨S1x512, .f32⟩
  | .local _ .vmem, ⟨13, _⟩ => ⟨S1x512, .f32⟩
  | .local _ .vmem, ⟨14, _⟩ => ⟨S1x64, .f32⟩
  | .local _ .vmem, ⟨15, _⟩ => ⟨S1x64, .f32⟩
  | .local _ .vmem, ⟨16, _⟩ => ⟨S512x1, .f32⟩
  | .local _ .vmem, ⟨17, _⟩ => ⟨S512x1, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_1 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_2 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S2048x64_S64x2048_1_0 : S2048x64.Transposes [1, 0] S64x2048
  transposes_S1024x2048_S2048x1024_1_0 : S1024x2048.Transposes [1, 0] S2048x1024
  bitsLt_bf16_f32 : FTy.bits .bf16 < FTy.bits .f32
  transposes_S512x1024_S1024x512_1_0 : S512x1024.Transposes [1, 0] S1024x512
  transposes_S64x512_S512x64_1_0 : S64x512.Transposes [1, 0] S512x64
  shapeCasts_S1_S1x1 : S1.ShapeCasts S1x1
  bcast_S_S2048 : S_.BroadcastsInDim S2048 (![] : Fin 0 → Fin S2048.rank)
  shapeCasts_S2048_S1x2048 : S2048.ShapeCasts S1x2048
  bcast_S_S1024 : S_.BroadcastsInDim S1024 (![] : Fin 0 → Fin S1024.rank)
  shapeCasts_S1024_S1x1024 : S1024.ShapeCasts S1x1024
  bcast_S_S512 : S_.BroadcastsInDim S512 (![] : Fin 0 → Fin S512.rank)
  shapeCasts_S512_S1x512 : S512.ShapeCasts S1x512
  bcast_S_S64 : S_.BroadcastsInDim S64 (![] : Fin 0 → Fin S64.rank)
  shapeCasts_S64_S1x64 : S64.ShapeCasts S1x64
  inb_S512x64_S512x64_0_0 : ∀ a, (![0, 0] : Fin 2 → Nat) a + S512x64.size a ≤ S512x64.size a
  h_S512x64 : 0 < S512x64.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x64_S64x2048_S512x2048_1_0_0_1_n_n_wf : DotDims.WF S512x64 S64x2048 S512x2048 [1] [0] [0] [1] [] []
  dot_S512x2048_S2048x1024_S512x1024_1_0_0_1_n_n_wf : DotDims.WF S512x2048 S2048x1024 S512x1024 [1] [0] [0] [1] [] []
  dot_S512x1024_S1024x512_S512x512_1_0_0_1_n_n_wf : DotDims.WF S512x1024 S1024x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S32768x64.size a
  hwx0_0 : ∀ i : grid0.Coords, EltTy.bits .f32 = 32 ∨ (Rect.block (s := S32768x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .bf16 = 32 ∨ (Rect.block (s := S512x64) S512x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x1.size a ≤ S32768x1.size a
  hwx0_15 : ∀ i : grid0.Coords, EltTy.bits .f32 = 32 ∨ (Rect.block (s := S32768x1) S512x1.size (cc0_transform_15 i) (hinb0_15 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v38) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v46) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v47) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v48) S512x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S32768x64 : Shape := ⟨2, ![32768, 64]⟩
abbrev S2048x64 : Shape := ⟨2, ![2048, 64]⟩
abbrev S2048 : Shape := ⟨1, ![2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S64x512 : Shape := ⟨2, ![64, 512]⟩
abbrev S64 : Shape := ⟨1, ![64]⟩
abbrev S1x64 : Shape := ⟨2, ![1, 64]⟩
abbrev S1 : Shape := ⟨1, ![1]⟩
abbrev S64x2048 : Shape := ⟨2, ![64, 2048]⟩
abbrev S32768x2048 : Shape := ⟨2, ![32768, 2048]⟩
abbrev S1x2048 : Shape := ⟨2, ![1, 2048]⟩
abbrev S_ : Shape := ⟨0, ![]⟩
abbrev S2048x1024 : Shape := ⟨2, ![2048, 1024]⟩
abbrev S32768x1024 : Shape := ⟨2, ![32768, 1024]⟩
abbrev S1x1024 : Shape := ⟨2, ![1, 1024]⟩
abbrev S1024x512 : Shape := ⟨2, ![1024, 512]⟩
abbrev S32768x512 : Shape := ⟨2, ![32768, 512]⟩
abbrev S1x512 : Shape := ⟨2, ![1, 512]⟩
abbrev S512x64 : Shape := ⟨2, ![512, 64]⟩
abbrev S64x1 : Shape := ⟨2, ![64, 1]⟩
abbrev S32768x1 : Shape := ⟨2, ![32768, 1]⟩
abbrev S1x1 : Shape := ⟨2, ![1, 1]⟩

abbrev nBuf : Space → Nat
  | .hbm => 204
  | .vmem => 0
  | .smem => 0
  | _ => 0

abbrev hbmTy0_0 (i : Nat) : BufTy := match i % 128 with
  | 0 => ⟨S32768x64, .f32⟩
  | 1 => ⟨S2048x64, .f32⟩
  | 2 => ⟨S2048, .f32⟩
  | 3 => ⟨S1024x2048, .f32⟩
  | 4 => ⟨S1024, .f32⟩
  | 5 => ⟨S512x1024, .f32⟩
  | 6 => ⟨S512, .f32⟩
  | 7 => ⟨S64x512, .f32⟩
  | 8 => ⟨S64, .f32⟩
  | 9 => ⟨S1x64, .f32⟩
  | 10 => ⟨S1, .f32⟩
  | 11 => ⟨S2048, .f32⟩
  | 12 => ⟨S2048, .f32⟩
  | 13 => ⟨S2048, .f32⟩
  | 14 => ⟨S2048, .f32⟩
  | 15 => ⟨S1024, .f32⟩
  | 16 => ⟨S1024, .f32⟩
  | 17 => ⟨S1024, .f32⟩
  | 18 => ⟨S1024, .f32⟩
  | 19 => ⟨S512, .f32⟩
  | 20 => ⟨S512, .f32⟩
  | 21 => ⟨S512, .f32⟩
  | 22 => ⟨S512, .f32⟩
  | 23 => ⟨S64, .f32⟩
  | 24 => ⟨S64, .f32⟩
  | 25 => ⟨S64, .f32⟩
  | 26 => ⟨S64, .f32⟩
  | 27 => ⟨S2048x64, .f32⟩
  | 28 => ⟨S2048x64, .f32⟩
  | 29 => ⟨S2048x64, .f32⟩
  | 30 => ⟨S64x2048, .f32⟩
  | 31 => ⟨S32768x2048, .f32⟩
  | 32 => ⟨S1x2048, .f32⟩
  | 33 => ⟨S32768x2048, .f32⟩
  | 34 => ⟨S32768x2048, .f32⟩
  | 35 => ⟨S1x2048, .f32⟩
  | 36 => ⟨S32768x2048, .f32⟩
  | 37 => ⟨S32768x2048, .f32⟩
  | 38 => ⟨S_, .f32⟩
  | 39 => ⟨S2048, .f32⟩
  | 40 => ⟨S2048, .f32⟩
  | 41 => ⟨S2048, .f32⟩
  | 42 => ⟨S2048, .f32⟩
  | 43 => ⟨S1x2048, .f32⟩
  | 44 => ⟨S32768x2048, .f32⟩
  | 45 => ⟨S32768x2048, .f32⟩
  | 46 => ⟨S1x2048, .f32⟩
  | 47 => ⟨S32768x2048, .f32⟩
  | 48 => ⟨S32768x2048, .f32⟩
  | 49 => ⟨S_, .f32⟩
  | 50 => ⟨S_, .f32⟩
  | 51 => ⟨S_, .f32⟩
  | 52 => ⟨S32768x2048, .f32⟩
  | 53 => ⟨S32768x2048, .f32⟩
  | 54 => ⟨S_, .f32⟩
  | 55 => ⟨S32768x2048, .f32⟩
  | 56 => ⟨S32768x2048, .f32⟩
  | 57 => ⟨S_, .f32⟩
  | 58 => ⟨S_, .f32⟩
  | 59 => ⟨S_, .f32⟩
  | 60 => ⟨S32768x2048, .f32⟩
  | 61 => ⟨S32768x2048, .f32⟩
  | 62 => ⟨S_, .f32⟩
  | 63 => ⟨S32768x2048, .f32⟩
  | 64 => ⟨S32768x2048, .f32⟩
  | 65 => ⟨S32768x2048, .f32⟩
  | 66 => ⟨S32768x2048, .f32⟩
  | 67 => ⟨S32768x2048, .f32⟩
  | 68 => ⟨S1024x2048, .f32⟩
  | 69 => ⟨S1024x2048, .f32⟩
  | 70 => ⟨S1024x2048, .f32⟩
  | 71 => ⟨S2048x1024, .f32⟩
  | 72 => ⟨S32768x1024, .f32⟩
  | 73 => ⟨S1x1024, .f32⟩
  | 74 => ⟨S32768x1024, .f32⟩
  | 75 => ⟨S32768x1024, .f32⟩
  | 76 => ⟨S1x1024, .f32⟩
  | 77 => ⟨S32768x1024, .f32⟩
  | 78 => ⟨S32768x1024, .f32⟩
  | 79 => ⟨S_, .f32⟩
  | 80 => ⟨S1024, .f32⟩
  | 81 => ⟨S1024, .f32⟩
  | 82 => ⟨S1024, .f32⟩
  | 83 => ⟨S1024, .f32⟩
  | 84 => ⟨S1x1024, .f32⟩
  | 85 => ⟨S32768x1024, .f32⟩
  | 86 => ⟨S32768x1024, .f32⟩
  | 87 => ⟨S1x1024, .f32⟩
  | 88 => ⟨S32768x1024, .f32⟩
  | 89 => ⟨S32768x1024, .f32⟩
  | 90 => ⟨S_, .f32⟩
  | 91 => ⟨S_, .f32⟩
  | 92 => ⟨S_, .f32⟩
  | 93 => ⟨S32768x1024, .f32⟩
  | 94 => ⟨S32768x1024, .f32⟩
  | 95 => ⟨S_, .f32⟩
  | 96 => ⟨S32768x1024, .f32⟩
  | 97 => ⟨S32768x1024, .f32⟩
  | 98 => ⟨S_, .f32⟩
  | 99 => ⟨S_, .f32⟩
  | 100 => ⟨S_, .f32⟩
  | 101 => ⟨S32768x1024, .f32⟩
  | 102 => ⟨S32768x1024, .f32⟩
  | 103 => ⟨S_, .f32⟩
  | 104 => ⟨S32768x1024, .f32⟩
  | 105 => ⟨S32768x1024, .f32⟩
  | 106 => ⟨S32768x1024, .f32⟩
  | 107 => ⟨S32768x1024, .f32⟩
  | 108 => ⟨S32768x1024, .f32⟩
  | 109 => ⟨S512x1024, .f32⟩
  | 110 => ⟨S512x1024, .f32⟩
  | 111 => ⟨S512x1024, .f32⟩
  | 112 => ⟨S1024x512, .f32⟩
  | 113 => ⟨S32768x512, .f32⟩
  | 114 => ⟨S1x512, .f32⟩
  | 115 => ⟨S32768x512, .f32⟩
  | 116 => ⟨S32768x512, .f32⟩
  | 117 => ⟨S1x512, .f32⟩
  | 118 => ⟨S32768x512, .f32⟩
  | 119 => ⟨S32768x512, .f32⟩
  | 120 => ⟨S_, .f32⟩
  | 121 => ⟨S512, .f32⟩
  | 122 => ⟨S512, .f32⟩
  | 123 => ⟨S512, .f32⟩
  | 124 => ⟨S512, .f32⟩
  | 125 => ⟨S1x512, .f32⟩
  | 126 => ⟨S32768x512, .f32⟩
  | 127 => ⟨S32768x512, .f32⟩
  | _ => ⟨S32768x64, .f32⟩

abbrev hbmTy0_1 (i : Nat) : BufTy := match i % 128 with
  | 0 => ⟨S1x512, .f32⟩
  | 1 => ⟨S32768x512, .f32⟩
  | 2 => ⟨S32768x512, .f32⟩
  | 3 => ⟨S_, .f32⟩
  | 4 => ⟨S_, .f32⟩
  | 5 => ⟨S_, .f32⟩
  | 6 => ⟨S32768x512, .f32⟩
  | 7 => ⟨S32768x512, .f32⟩
  | 8 => ⟨S_, .f32⟩
  | 9 => ⟨S32768x512, .f32⟩
  | 10 => ⟨S32768x512, .f32⟩
  | 11 => ⟨S_, .f32⟩
  | 12 => ⟨S_, .f32⟩
  | 13 => ⟨S_, .f32⟩
  | 14 => ⟨S32768x512, .f32⟩
  | 15 => ⟨S32768x512, .f32⟩
  | 16 => ⟨S_, .f32⟩
  | 17 => ⟨S32768x512, .f32⟩
  | 18 => ⟨S32768x512, .f32⟩
  | 19 => ⟨S32768x512, .f32⟩
  | 20 => ⟨S32768x512, .f32⟩
  | 21 => ⟨S32768x512, .f32⟩
  | 22 => ⟨S64x512, .f32⟩
  | 23 => ⟨S64x512, .f32⟩
  | 24 => ⟨S64x512, .f32⟩
  | 25 => ⟨S512x64, .f32⟩
  | 26 => ⟨S32768x64, .f32⟩
  | 27 => ⟨S1x64, .f32⟩
  | 28 => ⟨S32768x64, .f32⟩
  | 29 => ⟨S32768x64, .f32⟩
  | 30 => ⟨S1x64, .f32⟩
  | 31 => ⟨S32768x64, .f32⟩
  | 32 => ⟨S32768x64, .f32⟩
  | 33 => ⟨S_, .f32⟩
  | 34 => ⟨S64, .f32⟩
  | 35 => ⟨S64, .f32⟩
  | 36 => ⟨S64, .f32⟩
  | 37 => ⟨S64, .f32⟩
  | 38 => ⟨S1x64, .f32⟩
  | 39 => ⟨S32768x64, .f32⟩
  | 40 => ⟨S32768x64, .f32⟩
  | 41 => ⟨S1x64, .f32⟩
  | 42 => ⟨S32768x64, .f32⟩
  | 43 => ⟨S32768x64, .f32⟩
  | 44 => ⟨S_, .f32⟩
  | 45 => ⟨S_, .f32⟩
  | 46 => ⟨S_, .f32⟩
  | 47 => ⟨S32768x64, .f32⟩
  | 48 => ⟨S32768x64, .f32⟩
  | 49 => ⟨S_, .f32⟩
  | 50 => ⟨S32768x64, .f32⟩
  | 51 => ⟨S32768x64, .f32⟩
  | 52 => ⟨S_, .f32⟩
  | 53 => ⟨S_, .f32⟩
  | 54 => ⟨S_, .f32⟩
  | 55 => ⟨S32768x64, .f32⟩
  | 56 => ⟨S32768x64, .f32⟩
  | 57 => ⟨S_, .f32⟩
  | 58 => ⟨S32768x64, .f32⟩
  | 59 => ⟨S32768x64, .f32⟩
  | 60 => ⟨S32768x64, .f32⟩
  | 61 => ⟨S32768x64, .f32⟩
  | 62 => ⟨S32768x64, .f32⟩
  | 63 => ⟨S64x1, .f32⟩
  | 64 => ⟨S32768x1, .f32⟩
  | 65 => ⟨S1x1, .f32⟩
  | 66 => ⟨S32768x1, .f32⟩
  | 67 => ⟨S32768x1, .f32⟩
  | 68 => ⟨S32768x1, .f32⟩
  | 69 => ⟨S32768x1, .f32⟩
  | 70 => ⟨S_, .f32⟩
  | 71 => ⟨S32768x1, .f32⟩
  | 72 => ⟨S32768x1, .f32⟩
  | 73 => ⟨S_, .f32⟩
  | 74 => ⟨S32768x1, .f32⟩
  | 75 => ⟨S32768x1, .f32⟩
  | _ => ⟨S32768x64, .f32⟩

abbrev hbmTy (i : Nat) : BufTy := match i / 128 with
  | 0 => hbmTy0_0 i
  | 1 => hbmTy0_1 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_0 : Ref sig .tc := ⟨.hbm, 49, rfl⟩
abbrev main_cst_1 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v21 : Ref sig .tc := ⟨.hbm, 56, rfl⟩
abbrev main_cst_2 : Ref sig .tc := ⟨.hbm, 57, rfl⟩
abbrev main_cst_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_4 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_5 : Ref sig .tc := ⟨.hbm, 90, rfl⟩
abbrev main_cst_6 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v47 : Ref sig .tc := ⟨.hbm, 97, rfl⟩
abbrev main_cst_7 : Ref sig .tc := ⟨.hbm, 98, rfl⟩
abbrev main_cst_8 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_9 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_10 : Ref sig .tc := ⟨.hbm, 131, rfl⟩
abbrev main_cst_11 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_v73 : Ref sig .tc := ⟨.hbm, 138, rfl⟩
abbrev main_cst_12 : Ref sig .tc := ⟨.hbm, 139, rfl⟩
abbrev main_cst_13 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_cst_14 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_cst_15 : Ref sig .tc := ⟨.hbm, 172, rfl⟩
abbrev main_cst_16 : Ref sig .tc := ⟨.hbm, 173, rfl⟩
abbrev main_call6_v0 : Ref sig .tc := ⟨.hbm, 174, rfl⟩
abbrev main_call6_v1 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_v99 : Ref sig .tc := ⟨.hbm, 179, rfl⟩
abbrev main_cst_17 : Ref sig .tc := ⟨.hbm, 180, rfl⟩
abbrev main_cst_18 : Ref sig .tc := ⟨.hbm, 181, rfl⟩
abbrev main_call7_v0 : Ref sig .tc := ⟨.hbm, 182, rfl⟩
abbrev main_call7_v1 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_cst_19 : Ref sig .tc := ⟨.hbm, 198, rfl⟩
abbrev main_v111 : Ref sig .tc := ⟨.hbm, 199, rfl⟩
abbrev main_v112 : Ref sig .tc := ⟨.hbm, 200, rfl⟩
abbrev main_cst_20 : Ref sig .tc := ⟨.hbm, 201, rfl⟩
abbrev main_v113 : Ref sig .tc := ⟨.hbm, 202, rfl⟩
abbrev main_v114 : Ref sig .tc := ⟨.hbm, 203, rfl⟩

abbrev nD : Nat := 1
abbrev τ : Topo := Topo.v7x

variable {F : FTy → Type} [FloatOps F]

class Facts₀ : Prop where
  transposes_S2048x64_S64x2048_1_0 : S2048x64.Transposes [1, 0] S64x2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S2048 : S_.BroadcastsInDim S2048 (![] : Fin 0 → Fin S2048.rank)
  bcast_S_S32768x2048 : S_.BroadcastsInDim S32768x2048 (![] : Fin 0 → Fin S32768x2048.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S1024 : S_.BroadcastsInDim S1024 (![] : Fin 0 → Fin S1024.rank)
  bcast_S_S32768x1024 : S_.BroadcastsInDim S32768x1024 (![] : Fin 0 → Fin S32768x1024.rank)
  transposes_S512x1024_S1024x512_1_0 : S512x1024.Transposes [1, 0] S1024x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S512 : S_.BroadcastsInDim S512 (![] : Fin 0 → Fin S512.rank)
  bcast_S_S32768x512 : S_.BroadcastsInDim S32768x512 (![] : Fin 0 → Fin S32768x512.rank)
  transposes_S64x512_S512x64_1_0 : S64x512.Transposes [1, 0] S512x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S64 : S_.BroadcastsInDim S64 (![] : Fin 0 → Fin S64.rank)
  bcast_S_S32768x64 : S_.BroadcastsInDim S32768x64 (![] : Fin 0 → Fin S32768x64.rank)
  transposes_S1x64_S64x1_1_0 : S1x64.Transposes [1, 0] S64x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  dot_S32768x64_S64x2048_S32768x2048_1_0_0_1_n_n_wf : DotDims.WF S32768x64 S64x2048 S32768x2048 [1] [0] [0] [1] [] []
  dot_S32768x2048_S2048x1024_S32768x1024_1_0_0_1_n_n_wf : DotDims.WF S32768x2048 S2048x1024 S32768x1024 [1] [0] [0] [1] [] []
  dot_S32768x1024_S1024x512_S32768x512_1_0_0_1_n_n_wf : DotDims.WF S32768x1024 S1024x512 S32768x512 [1] [0] [0] [1] [] []
  dot_S32768x512_S512x64_S32768x64_1_0_0_1_n_n_wf : DotDims.WF S32768x512 S512x64 S32768x64 [1] [0] [0] [1] [] []
  dot_S32768x64_S64x1_S32768x1_1_0_0_1_n_n_wf : DotDims.WF S32768x64 S64x1 S32768x1 [1] [0] [0] [1] [] []

variable [Facts₀]

def dot_S32768x64_S64x2048_S32768x2048_1_0_0_1_n_n : DotDims S32768x64 S64x2048 S32768x2048 where
  lhsContracting := [1]
  rhsContracting := [0]
  lhsNonContracting := [0]
  rhsNonContracting := [1]
  lhsBatch := []
  rhsBatch := []
  wf := dot_S32768x64_S64x2048_S32768x2048_1_0_0_1_n_n_wf
def dot_S32768x2048_S2048x1024_S32768x1024_1_0_0_1_n_n : DotDims S32768x2048 S2048x1024 S32768x1024 where
  lhsContracting := [1]
  rhsContracting := [0]
  lhsNonContracting := [0]
  rhsNonContracting := [1]
  lhsBatch := []
  rhsBatch := []
  wf := dot_S32768x2048_S2048x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x64_S32768x64_1_0_0_1_n_n : DotDims S32768x512 S512x64 S32768x64 where
  lhsContracting := [1]
  rhsContracting := [0]
  lhsNonContracting := [0]
  rhsNonContracting := [1]
  lhsBatch := []
  rhsBatch := []
  wf := dot_S32768x512_S512x64_S32768x64_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf

class Facts : Prop extends Facts₀ where

variable [Facts]
-- ==== Proof.Net.lean ====
/-
  A binarized multilayer perceptron, one input row at a time, over the extended reals, in the two forms the
  two programs give it, and the law that joins them.

  A layer takes a row h, forms for every output channel j the pre-activation  P j = ∑ k, h k · sign (W j k),
  applies the batch-normalisation affine map with running mean mu, running variance v, gain g and offset be,
  and quantises the result to one bit: 1 where the normalised value is positive, 0 elsewhere.

  FOLDED form.  The affine map is folded into a scale and a shift computed once per channel,
      s j = g j · rsqrt (v j + ε),   t j = (b j − mu j) · s j + be j,
  and the bit is the comparison  P j · s j + t j > 0.

  LAYERED form.  The weights are w + (sign w − w), the affine map is  ((P j + b j) − mu j) · (g j / √(v j + ε)) + be j,
  the value is clipped to [−1, 1], then to [0, 1], and the bit is c + (sign c − c) of the clipped value c.

  The two agree when every quantity is a real number and every variance is non-negative: then v + ε > 0, the
  reciprocal square root and the quotient by the square root are one real number s, the two affine forms differ by
  distributing s over a sum of reals, w + (sign w − w) is sign w, and a real c in [0, 1] has sign c = 1 exactly
  when the normalised value is positive.  (At v + ε = 0 the scale is infinite and distributing it over a sum is
  no longer valid on the extended reals; below zero the two scales themselves differ.  Hence the hypothesis.)

  The last layer is linear with a logistic output, 1 / (1 + exp (−(∑ k, h k · w k + c))), the same in both forms.
-/
import Idealize.ShloMosaic.PureOps.Ideal
import Idealize.ShloMosaic.PureOps.Ideal.Laws
import Idealize.ShloMosaic.Lib.ValueIdx

noncomputable section

namespace Cert.BinMlp

open Idealize.ShloMosaic Idealize.ShloMosaic.ValueIdx

/-! ## The four float constants, as the words the programs carry -/

/-- ε, the float nearest 1e-5. -/
abbrev epsW : EReal := Ideal.ofBits .f32 0x3727C5AC#32
abbrev oneW : EReal := Ideal.ofBits .f32 0x3F800000#32
abbrev negOneW : EReal := Ideal.ofBits .f32 0xBF800000#32
abbrev zeroW : EReal := Ideal.ofBits .f32 0x00000000#32

theorem zeroW_eq : zeroW = ((0 : ℝ) : EReal) := by
  show Ideal.ofBits .f32 0x00000000#32 = _
  rw [Ideal.ofBits_zero_f32]; rfl

theorem oneW_eq : oneW = ((1 : ℝ) : EReal) := by
  show Ideal.ofBits .f32 0x3F800000#32 = _
  simp [Ideal.ofBits, Ideal.ieee]
  rw [← EReal.coe_mul]; norm_num

theorem negOneW_eq : negOneW = ((-1 : ℝ) : EReal) := by
  show Ideal.ofBits .f32 0xBF800000#32 = _
  simp [Ideal.ofBits, Ideal.ieee]
  rw [← EReal.coe_mul]; norm_num

/-- ε is a positive real. -/
theorem epsW_pos : ∃ e : ℝ, 0 < e ∧ epsW = (e : EReal) := by
  refine ⟨10995116 * ((2 : ℝ) ^ 40)⁻¹, by positivity, ?_⟩
  show Ideal.ofBits .f32 0x3727C5AC#32 = _
  simp [Ideal.ofBits, Ideal.ieee]

/-! ## Real-valued families -/

/-- Every entry is a real number (neither infinity). -/
def IsReal {α : Type} (a : α → EReal) : Prop := ∀ i, ∃ r : ℝ, a i = (r : EReal)

theorem coe_sum {ι : Type} [Fintype ι] (f : ι → ℝ) : (∑ k, ((f k : ℝ) : EReal)) = ((∑ k, f k : ℝ) : EReal) := by
  classical
  refine Finset.induction_on (Finset.univ : Finset ι) (by simp) ?_
  intro a s ha ih
  rw [Finset.sum_insert ha, Finset.sum_insert ha, ih, EReal.coe_add]

/-! ## One layer, in the two forms -/

section Layer

variable {ι κ : Type} [Fintype ι]

def scaleK (g v : EReal) : EReal := g * Ideal.rsqrt (v + epsW)
def shiftK (b mu g v be : EReal) : EReal := (b - mu) * scaleK g v + be
/-- One where the argument is positive, zero elsewhere, as a comparison selecting between the two words. -/
def stepK (y : EReal) : EReal := Scalar.select (Ideal.cmp .ogt y zeroW) oneW zeroW
def layerK (h : ι → EReal) (W : κ → ι → EReal) (b mu g v be : κ → EReal) : κ → EReal :=
  fun j => stepK ((∑ k, h k * Ideal.sign (W j k)) * scaleK (g j) (v j) + shiftK (b j) (mu j) (g j) (v j) (be j))
def outK (h : ι → EReal) (w : ι → EReal) (c : EReal) : EReal := Ideal.logistic ((∑ k, h k * w k) + c)

/-- w + (sign w − w): the sign of w, for a real w. -/
def steR (w : EReal) : EReal := w + (Ideal.sign w - w)
def scaleR (g v : EReal) : EReal := Ideal.div g (Ideal.sqrt (v + epsW))
def clipR (lo hi y : EReal) : EReal := min hi (max lo y)
def actR (y : EReal) : EReal := steR (clipR zeroW oneW (clipR negOneW oneW y))
def layerR (h : ι → EReal) (W : κ → ι → EReal) (b mu g v be : κ → EReal) : κ → EReal :=
  fun j => actR ((((∑ k, h k * steR (W j k)) + b j) - mu j) * scaleR (g j) (v j) + be j)
def outR (h : ι → EReal) (w : ι → EReal) (c : EReal) : EReal :=
  Ideal.div oneW (oneW + Ideal.exp (-((∑ k, h k * w k) + c)))

/-- The unit step of a real. -/
def bit (y : ℝ) : ℝ := if 0 < y then 1 else 0

theorem coe_max (a b : ℝ) : ((max a b : ℝ) : EReal) = max (a : EReal) (b : EReal) :=
  EReal.coe_strictMono.monotone.map_max
theorem coe_min (a b : ℝ) : ((min a b : ℝ) : EReal) = min (a : EReal) (b : EReal) :=
  EReal.coe_strictMono.monotone.map_min

theorem stepK_coe (y : ℝ) : stepK (y : EReal) = ((bit y : ℝ) : EReal) := by
  unfold stepK bit Ideal.cmp
  rw [zeroW_eq]
  by_cases hy : 0 < y
  · have : ((0 : ℝ) : EReal) < (y : EReal) := EReal.coe_lt_coe_iff.2 hy
    simp only [this, decide_true, BitVec.ofBool_true, if_pos hy]
    exact (select_one _ _).trans oneW_eq
  · have : ¬ ((0 : ℝ) : EReal) < (y : EReal) := fun h => hy (EReal.coe_lt_coe_iff.1 h)
    simp only [this, decide_false, BitVec.ofBool_false, if_neg hy]
    exact (select_zero _ _).trans rfl

theorem steR_coe (w : ℝ) : steR (w : EReal) = ((SignType.sign w : ℝ) : EReal) := by
  unfold steR
  rw [Ideal.sign_coe, ← EReal.coe_sub, ← EReal.coe_add]
  congr 1; ring

theorem actR_coe (y : ℝ) : actR (y : EReal) = ((bit y : ℝ) : EReal) := by
  unfold actR clipR
  rw [zeroW_eq, oneW_eq, negOneW_eq, ← coe_max, ← coe_min, ← coe_max, ← coe_min, steR_coe]
  congr 1
  unfold bit
  by_cases hy : 0 < y
  · rw [if_pos hy]
    have h1 : 0 < min 1 (max (-1) y) := lt_min one_pos (lt_max_of_lt_right hy)
    have h2 : 0 < min 1 (max 0 (min 1 (max (-1) y))) := lt_min one_pos (lt_max_of_lt_right h1)
    rw [sign_pos h2]; rfl
  · rw [if_neg hy]
    have hy' : y ≤ 0 := not_lt.1 hy
    have h1 : min 1 (max (-1) y) ≤ 0 := (min_le_right _ _).trans (max_le (by norm_num) hy')
    have h2 : min 1 (max 0 (min 1 (max (-1) y))) = 0 := by
      rw [max_eq_left h1]; exact min_eq_right zero_le_one
    rw [h2, sign_zero]; rfl

/-- For a non-negative real variance the two scales are one real number. -/
theorem scale_coe (g v : ℝ) (hv : 0 ≤ v) :
    ∃ s : ℝ, scaleR (g : EReal) (v : EReal) = (s : EReal) ∧ scaleK (g : EReal) (v : EReal) = (s : EReal) := by
  obtain ⟨e, he, hee⟩ := epsW_pos
  have hz : 0 < v + e := by linarith
  have hs : Real.sqrt (v + e) ≠ 0 := (Real.sqrt_pos.2 hz).ne'
  refine ⟨g * (Real.sqrt (v + e))⁻¹, ?_, ?_⟩
  · unfold scaleR
    rw [hee, ← EReal.coe_add, Ideal.sqrt_coe, if_neg (not_lt.2 hz.le), Ideal.div_coe hs, ← EReal.coe_mul]
    congr 1; rw [one_div]
  · unfold scaleK
    rw [hee, ← EReal.coe_add, Ideal.rsqrt_coe, if_neg (not_lt.2 hz.le), if_neg hz.ne', ← EReal.coe_mul]

/-- The two forms of a layer agree on real data with non-negative variances. -/
theorem layer_eq (h : ι → EReal) (W : κ → ι → EReal) (b mu g v be : κ → EReal)
    (hh : IsReal h) (hW : ∀ j, IsReal (W j)) (hb : IsReal b) (hmu : IsReal mu) (hg : IsReal g)
    (hv : IsReal v) (hv0 : ∀ j, 0 ≤ v j) (hbe : IsReal be) :
    layerR h W b mu g v be = layerK h W b mu g v be := by
  funext j
  choose fh hfh using hh
  choose fw hfw using hW j
  obtain ⟨b', hb'⟩ := hb j
  obtain ⟨mu', hmu'⟩ := hmu j
  obtain ⟨g', hg'⟩ := hg j
  obtain ⟨v', hv'⟩ := hv j
  obtain ⟨be', hbe'⟩ := hbe j
  have hv0' : 0 ≤ v' := by have := hv0 j; rw [hv'] at this; exact EReal.coe_nonneg.1 this
  obtain ⟨s, hsR, hsK⟩ := scale_coe g' v' hv0'
  have hPR : (∑ k, h k * steR (W j k)) = ((∑ k, fh k * (SignType.sign (fw k) : ℝ) : ℝ) : EReal) := by
    rw [← coe_sum]; refine Finset.sum_congr rfl fun k _ => ?_
    rw [hfh k, hfw k, steR_coe, ← EReal.coe_mul]
  have hPK : (∑ k, h k * Ideal.sign (W j k)) = ((∑ k, fh k * (SignType.sign (fw k) : ℝ) : ℝ) : EReal) := by
    rw [← coe_sum]; refine Finset.sum_congr rfl fun k _ => ?_
    rw [hfh k, hfw k, Ideal.sign_coe, ← EReal.coe_mul]
  show actR ((((∑ k, h k * steR (W j k)) + b j) - mu j) * scaleR (g j) (v j) + be j)
      = stepK ((∑ k, h k * Ideal.sign (W j k)) * scaleK (g j) (v j) + shiftK (b j) (mu j) (g j) (v j) (be j))
  unfold shiftK
  rw [hPR, hPK, hb', hmu', hg', hv', hbe', hsR, hsK]
  rw [← EReal.coe_add, ← EReal.coe_sub, ← EReal.coe_mul, ← EReal.coe_add, actR_coe]
  rw [← EReal.coe_sub, ← EReal.coe_mul, ← EReal.coe_mul, ← EReal.coe_add, ← EReal.coe_add, stepK_coe]
  congr 2; ring

/-- A layer's output is real (it is one of two real words). -/
theorem layerK_real (h : ι → EReal) (W : κ → ι → EReal) (b mu g v be : κ → EReal) :
    IsReal (layerK h W b mu g v be) := by
  intro j
  show ∃ r : ℝ, stepK _ = (r : EReal)
  unfold stepK
  by_cases hc : Ideal.cmp .ogt ((∑ k, h k * Ideal.sign (W j k)) * scaleK (g j) (v j) + shiftK (b j) (mu j) (g j) (v j) (be j)) zeroW = 1#1
  · rw [hc, select_one]; exact ⟨1, oneW_eq⟩
  · rw [eq_zero_of_ne_one hc, select_zero]; exact ⟨0, zeroW_eq⟩

/-- The output unit is the same function in both forms. -/
theorem out_eq (h : ι → EReal) (w : ι → EReal) (c : EReal) : outR h w c = outK h w c := by
  unfold outR outK Ideal.logistic
  rw [oneW_eq, EReal.coe_one]

end Layer

/-! ## The whole network

Four layers of widths 64 → 2048 → 1024 → 512 → 64 and the output unit, on one input row; then row by row over a
batch of 32768 rows. The arrays come in the programs' argument order: x, then (w, b) for the five layers, then
(g, be, mu, v) for the four normalised layers. -/

abbrev A2 (a b : Nat) : Type := (⟨2, ![a, b]⟩ : Shape).Idx → EReal
abbrev A1 (a : Nat) : Type := (⟨1, ![a]⟩ : Shape).Idx → EReal

/-- A matrix as a function of its row and column numbers; a vector as a function of its position. -/
def mat {a b : Nat} (W : A2 a b) : Fin a → Fin b → EReal := fun j k => W (ix2 j k)
def vec {a : Nat} (u : A1 a) : Fin a → EReal := fun j => u (ix1 j)

/-- The row number of a matrix index. -/
def rowOf {M N : Nat} (i : (⟨2, ![M, N]⟩ : Shape).Idx) : Fin M := ⟨(i 0).val, (i 0).isLt⟩

def netK (x : Fin 64 → EReal) (w1 : A2 2048 64) (b1 : A1 2048) (w2 : A2 1024 2048) (b2 : A1 1024)
    (w3 : A2 512 1024) (b3 : A1 512) (w4 : A2 64 512) (b4 : A1 64) (w5 : A2 1 64) (b5 : A1 1)
    (g1 be1 m1 v1 : A1 2048) (g2 be2 m2 v2 : A1 1024) (g3 be3 m3 v3 : A1 512) (g4 be4 m4 v4 : A1 64) : EReal :=
  outK (layerK (layerK (layerK (layerK x
      (mat w1) (vec b1) (vec m1) (vec g1) (vec v1) (vec be1))
      (mat w2) (vec b2) (vec m2) (vec g2) (vec v2) (vec be2))
      (mat w3) (vec b3) (vec m3) (vec g3) (vec v3) (vec be3))
      (mat w4) (vec b4) (vec m4) (vec g4) (vec v4) (vec be4))
    (fun k => w5 (ix2 (0 : Fin 1) k)) (b5 (ix1 (0 : Fin 1)))

def netR (x : Fin 64 → EReal) (w1 : A2 2048 64) (b1 : A1 2048) (w2 : A2 1024 2048) (b2 : A1 1024)
    (w3 : A2 512 1024) (b3 : A1 512) (w4 : A2 64 512) (b4 : A1 64) (w5 : A2 1 64) (b5 : A1 1)
    (g1 be1 m1 v1 : A1 2048) (g2 be2 m2 v2 : A1 1024) (g3 be3 m3 v3 : A1 512) (g4 be4 m4 v4 : A1 64) : EReal :=
  outR (layerR (layerR (layerR (layerR x
      (mat w1) (vec b1) (vec m1) (vec g1) (vec v1) (vec be1))
      (mat w2) (vec b2) (vec m2) (vec g2) (vec v2) (vec be2))
      (mat w3) (vec b3) (vec m3) (vec g3) (vec v3) (vec be3))
      (mat w4) (vec b4) (vec m4) (vec g4) (vec v4) (vec be4))
    (fun k => w5 (ix2 (0 : Fin 1) k)) (b5 (ix1 (0 : Fin 1)))

/-- On real data with non-negative variances the two forms of the network agree. -/
theorem net_eq (x : Fin 64 → EReal) (w1 : A2 2048 64) (b1 : A1 2048) (w2 : A2 1024 2048) (b2 : A1 1024)
    (w3 : A2 512 1024) (b3 : A1 512) (w4 : A2 64 512) (b4 : A1 64) (w5 : A2 1 64) (b5 : A1 1)
    (g1 be1 m1 v1 : A1 2048) (g2 be2 m2 v2 : A1 1024) (g3 be3 m3 v3 : A1 512) (g4 be4 m4 v4 : A1 64)
    (hx : IsReal x) (hw1 : IsReal w1) (hb1 : IsReal b1) (hw2 : IsReal w2) (hb2 : IsReal b2)
    (hw3 : IsReal w3) (hb3 : IsReal b3) (hw4 : IsReal w4) (hb4 : IsReal b4)
    (hg1 : IsReal g1) (hbe1 : IsReal be1) (hm1 : IsReal m1) (hv1 : IsReal v1) (hp1 : ∀ i, 0 ≤ v1 i)
    (hg2 : IsReal g2) (hbe2 : IsReal be2) (hm2 : IsReal m2) (hv2 : IsReal v2) (hp2 : ∀ i, 0 ≤ v2 i)
    (hg3 : IsReal g3) (hbe3 : IsReal be3) (hm3 : IsReal m3) (hv3 : IsReal v3) (hp3 : ∀ i, 0 ≤ v3 i)
    (hg4 : IsReal g4) (hbe4 : IsReal be4) (hm4 : IsReal m4) (hv4 : IsReal v4) (hp4 : ∀ i, 0 ≤ v4 i) :
    netR x w1 b1 w2 b2 w3 b3 w4 b4 w5 b5 g1 be1 m1 v1 g2 be2 m2 v2 g3 be3 m3 v3 g4 be4 m4 v4
      = netK x w1 b1 w2 b2 w3 b3 w4 b4 w5 b5 g1 be1 m1 v1 g2 be2 m2 v2 g3 be3 m3 v3 g4 be4 m4 v4 := by
  unfold netR netK
  rw [out_eq]
  rw [layer_eq x (mat w1) (vec b1) (vec m1) (vec g1) (vec v1) (vec be1) hx (fun j k => hw1 _) (fun j => hb1 _)
    (fun j => hm1 _) (fun j => hg1 _) (fun j => hv1 _) (fun j => hp1 _) (fun j => hbe1 _)]
  rw [layer_eq _ (mat w2) (vec b2) (vec m2) (vec g2) (vec v2) (vec be2) (layerK_real _ _ _ _ _ _ _) (fun j k => hw2 _)
    (fun j => hb2 _) (fun j => hm2 _) (fun j => hg2 _) (fun j => hv2 _) (fun j => hp2 _) (fun j => hbe2 _)]
  rw [layer_eq _ (mat w3) (vec b3) (vec m3) (vec g3) (vec v3) (vec be3) (layerK_real _ _ _ _ _ _ _) (fun j k => hw3 _)
    (fun j => hb3 _) (fun j => hm3 _) (fun j => hg3 _) (fun j => hv3 _) (fun j => hp3 _) (fun j => hbe3 _)]
  rw [layer_eq _ (mat w4) (vec b4) (vec m4) (vec g4) (vec v4) (vec be4) (layerK_real _ _ _ _ _ _ _) (fun j k => hw4 _)
    (fun j => hb4 _) (fun j => hm4 _) (fun j => hg4 _) (fun j => hv4 _) (fun j => hp4 _) (fun j => hbe4 _)]

/-- The batch: every row of x through the network, in the folded form and in the layered form. -/
def GK (x : A2 32768 64) (w1 : A2 2048 64) (b1 : A1 2048) (w2 : A2 1024 2048) (b2 : A1 1024)
    (w3 : A2 512 1024) (b3 : A1 512) (w4 : A2 64 512) (b4 : A1 64) (w5 : A2 1 64) (b5 : A1 1)
    (g1 be1 m1 v1 : A1 2048) (g2 be2 m2 v2 : A1 1024) (g3 be3 m3 v3 : A1 512) (g4 be4 m4 v4 : A1 64) : A2 32768 1 :=
  fun i => netK (fun k => x (ix2 (rowOf i) k)) w1 b1 w2 b2 w3 b3 w4 b4 w5 b5 g1 be1 m1 v1 g2 be2 m2 v2 g3 be3 m3 v3 g4 be4 m4 v4

def GR (x : A2 32768 64) (w1 : A2 2048 64) (b1 : A1 2048) (w2 : A2 1024 2048) (b2 : A1 1024)
    (w3 : A2 512 1024) (b3 : A1 512) (w4 : A2 64 512) (b4 : A1 64) (w5 : A2 1 64) (b5 : A1 1)
    (g1 be1 m1 v1 : A1 2048) (g2 be2 m2 v2 : A1 1024) (g3 be3 m3 v3 : A1 512) (g4 be4 m4 v4 : A1 64) : A2 32768 1 :=
  fun i => netR (fun k => x (ix2 (rowOf i) k)) w1 b1 w2 b2 w3 b3 w4 b4 w5 b5 g1 be1 m1 v1 g2 be2 m2 v2 g3 be3 m3 v3 g4 be4 m4 v4

theorem G_eq (x : A2 32768 64) (w1 : A2 2048 64) (b1 : A1 2048) (w2 : A2 1024 2048) (b2 : A1 1024)
    (w3 : A2 512 1024) (b3 : A1 512) (w4 : A2 64 512) (b4 : A1 64) (w5 : A2 1 64) (b5 : A1 1)
    (g1 be1 m1 v1 : A1 2048) (g2 be2 m2 v2 : A1 1024) (g3 be3 m3 v3 : A1 512) (g4 be4 m4 v4 : A1 64)
    (hx : IsReal x) (hw1 : IsReal w1) (hb1 : IsReal b1) (hw2 : IsReal w2) (hb2 : IsReal b2)
    (hw3 : IsReal w3) (hb3 : IsReal b3) (hw4 : IsReal w4) (hb4 : IsReal b4)
    (hg1 : IsReal g1) (hbe1 : IsReal be1) (hm1 : IsReal m1) (hv1 : IsReal v1) (hp1 : ∀ i, 0 ≤ v1 i)
    (hg2 : IsReal g2) (hbe2 : IsReal be2) (hm2 : IsReal m2) (hv2 : IsReal v2) (hp2 : ∀ i, 0 ≤ v2 i)
    (hg3 : IsReal g3) (hbe3 : IsReal be3) (hm3 : IsReal m3) (hv3 : IsReal v3) (hp3 : ∀ i, 0 ≤ v3 i)
    (hg4 : IsReal g4) (hbe4 : IsReal be4) (hm4 : IsReal m4) (hv4 : IsReal v4) (hp4 : ∀ i, 0 ≤ v4 i) :
    GR x w1 b1 w2 b2 w3 b3 w4 b4 w5 b5 g1 be1 m1 v1 g2 be2 m2 v2 g3 be3 m3 v3 g4 be4 m4 v4
      = GK x w1 b1 w2 b2 w3 b3 w4 b4 w5 b5 g1 be1 m1 v1 g2 be2 m2 v2 g3 be3 m3 v3 g4 be4 m4 v4 :=
  funext fun i => net_eq _ w1 b1 w2 b2 w3 b3 w4 b4 w5 b5 g1 be1 m1 v1 g2 be2 m2 v2 g3 be3 m3 v3 g4 be4 m4 v4
    (fun k => hx _) hw1 hb1 hw2 hb2 hw3 hb3 hw4 hb4 hg1 hbe1 hm1 hv1 hp1 hg2 hbe2 hm2 hv2 hp2 hg3 hbe3 hm3 hv3 hp3
    hg4 hbe4 hm4 hv4 hp4

end Cert.BinMlp

end
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.LibDense.lean ====
/-
  The pieces of a dense layer read at one entry, over the extended reals.

  A matrix product reads, at row r and column c, the sum over k of A(r, k) · B(k, c): row r of A against
  column c of B.  The product accumulated into the zero matrix and the plain product are both this sum when
  their dimension numbers are the plain ones (left operand contracted on its second axis, right operand on its
  first, no batch axis), whatever float formats the operands carry.  A one-column matrix spread across the
  columns reads, at (r, c), its entry of row r; a single number spread over a whole array reads that number.
-/
import Idealize.ShloMosaic.PureOps.Ideal.Laws
import Idealize.ShloMosaic.Lib.ValueIdx
import Idealize.ShloMosaic.Lib.Pipeline.Value
import proofs.«150261_j33036888441373_2_alg».proof.Proof.LibMatmul

noncomputable section

namespace Cert.Hand.Dense

open Idealize.ShloMosaic Idealize.ShloMosaic.ValueIdx

/-- Column `c` of a matrix, as a function of the row. -/
def col {a b : ℕ} (A : (⟨2, ![a, b]⟩ : Shape).Idx → EReal) (c : Fin b) : Fin a → EReal := fun k => A (ix2 k c)

/-- Row `r` of a matrix against a vector: the sum over k of A(r, k) · v(k). -/
def lin {a k : ℕ} (A : (⟨2, ![a, k]⟩ : Shape).Idx → EReal) (v : Fin k → EReal) (r : Fin a) : EReal :=
  ∑ j : Fin k, A (ix2 r j) * v j

theorem col_apply {a b : ℕ} (A : (⟨2, ![a, b]⟩ : Shape).Idx → EReal) (c : Fin b) (k : Fin a) :
    col A c k = A (ix2 k c) := rfl

/-- A product accumulated into the zero matrix, at (r, c): row r of the left operand against column c of the right. -/
theorem matmul_entry {M K N : ℕ} {φ₁ φ₂ : FTy} (prec : Option ContractPrecision)
    (A : FVec Ideal ⟨2, ![M, K]⟩ φ₁) (B : FVec Ideal ⟨2, ![K, N]⟩ φ₂) (r : Fin M) (c : Fin N) :
    FloatOps.matmul (DotDims.plain M K N) prec A B (constant (F := Ideal) ⟨2, ![M, N]⟩ .f32 0x00000000#32) (ix2 r c)
      = lin A (col B c) r := by
  rw [Ideal.matmul_constant_zero_apply]
  exact LibMatmul.plain_sum M K N A B (ix2 r c)

/-- The plain product, at (r, c): the same sum. -/
theorem dot_entry {M K N : ℕ} {φ₁ φ₂ : FTy} (prec : Option ContractPrecision) (sched : HostSchedule)
    (A : FVec Ideal ⟨2, ![M, K]⟩ φ₁) (B : FVec Ideal ⟨2, ![K, N]⟩ φ₂) (r : Fin M) (c : Fin N) :
    FloatOps.dotGeneral (DotDims.plain M K N) prec sched A B (ix2 r c) = lin A (col B c) r := by
  rw [Ideal.dotGeneral_apply]
  exact LibMatmul.plain_sum M K N A B (ix2 r c)

variable {α : Type}

/-- An a-by-1 column spread across b columns (each operand axis kept in place) reads, at (r, c), the column at row r. -/
theorem spread_col_apply {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- A single value spread over a whole array reads that value everywhere. -/
theorem spread_scalar_apply {s : Shape} (y : (⟨0, ![]⟩ : Shape).Idx → α)
    (h : (⟨0, ![]⟩ : Shape).BroadcastsInDim s ![]) (j : s.Idx) :
    broadcastInDim s ![] h y j = y ix0 :=
  broadcastInDim_apply _ h y j ix0 fun ax => ax.elim0

end Cert.Hand.Dense

end
-- ==== Proof.KernelPay.lean ====
/-
  What the kernel body computes on one block of 512 rows, read at an entry.

  A folded layer on a block is a matrix product into zero, times a scale row, plus a shift row, compared with
  zero, selecting one or zero. At row p and channel j this is the step of
      (∑ k, A(p, k) · B(k, j)) · s(0, j) + t(0, j):
  the product reads row p of the left operand against column j of the right one, the two rows are spread down
  the block so every row of the block sees the same scale and shift, and everything else acts entry by entry.
  Two such layers make the first payload, two more followed by a product with the last layer's weight row,
  summed along the row, make the second.
-/
import proofs.«150261_j33036888441373_2_alg».proof.Proof.Gen.KernelIdeal.Skeleton
import proofs.«150261_j33036888441373_2_alg».proof.Proof.Net
import proofs.«150261_j33036888441373_2_alg».proof.Proof.LibDense
import Idealize.ShloMosaic.Lib.ValueLayout
import Idealize.ShloMosaic.Lib.Pipeline.Value
import Idealize.ShloMosaic.PureOps.Ideal.Laws

noncomputable section

namespace Cert.BinMlp

open Idealize.ShloMosaic Idealize.ShloMosaic.ValueIdx Cert.Hand.Dense

/-- A folded layer on one row: the weights already signed and transposed (input position first), the scale and
    the shift given per channel. -/
def layerF {ι κ : Type} [Fintype ι] (h : ι → EReal) (Wt : ι → κ → EReal) (s t : κ → EReal) : κ → EReal :=
  fun j => stepK ((∑ k, h k * Wt k j) * s j + t j)

/-- The folded layer of the specification is this one at the signed, transposed weights and the folded scale and shift. -/
theorem layerK_eq_layerF {ι κ : Type} [Fintype ι] (h : ι → EReal) (W : κ → ι → EReal) (b mu g v be : κ → EReal) :
    layerK h W b mu g v be
      = layerF h (fun k j => Ideal.sign (W j k)) (fun j => scaleK (g j) (v j)) (fun j => shiftK (b j) (mu j) (g j) (v j) (be j)) := rfl

/-- One folded layer of the body on a block, read at row p, channel j. -/
theorem blockLayer_apply {M K N : Nat} {φ₁ φ₂ : FTy} (prec : Option ContractPrecision)
    (A : FVec Ideal ⟨2, ![M, K]⟩ φ₁) (B : FVec Ideal ⟨2, ![K, N]⟩ φ₂) (s t : FVec Ideal ⟨2, ![1, N]⟩ .f32)
    (hB : (⟨2, ![K, N]⟩ : Shape).ShapeCasts ⟨2, ![K, N]⟩) (hs : (⟨2, ![1, N]⟩ : Shape).ShapeCasts ⟨2, ![1, N]⟩)
    (hbc : (⟨2, ![1, N]⟩ : Shape).Broadcasts ⟨2, ![M, N]⟩) (p : Fin M) (j : Fin N) :
    select (cmpf .ogt
        (addf (mulf (FloatOps.matmul (DotDims.plain M K N) prec A (shapeCast ⟨2, ![K, N]⟩ B hB) (constant (F := Ideal) ⟨2, ![M, N]⟩ .f32 0x00000000#32))
            (broadcastTo ⟨2, ![M, N]⟩ (shapeCast ⟨2, ![1, N]⟩ s hs) hbc))
          (broadcastTo ⟨2, ![M, N]⟩ (shapeCast ⟨2, ![1, N]⟩ t hs) hbc))
        (broadcast ⟨2, ![M, N]⟩ (Scalar.ofBits (F := Ideal) .f32 0x00000000#32)))
      (broadcast ⟨2, ![M, N]⟩ (Scalar.ofBits (F := Ideal) .f32 0x3F800000#32))
      (broadcast ⟨2, ![M, N]⟩ (Scalar.ofBits (F := Ideal) .f32 0x00000000#32)) (ix2 p j)
    = layerF (fun k => A (ix2 p k)) (fun k j => B (ix2 k j)) (fun j => s (ix2 (0 : Fin 1) j)) (fun j => t (ix2 (0 : Fin 1) j)) j := by
  rw [shapeCast_self, shapeCast_self, shapeCast_self]
  rw [select_apply, cmpf_apply, addf_apply, mulf_apply, broadcast_apply,
    broadcastTo_1b_ab_apply, broadcastTo_1b_ab_apply, matmul_entry]
  rfl

/-! ## The body's payloads -/

open Cert.KernelIdeal Cert.KernelIdeal.Gen

theorem dot1_eq : dot_S512x64_S64x2048_S512x2048_1_0_0_1_n_n = DotDims.plain 512 64 2048 := rfl
theorem dot2_eq : dot_S512x2048_S2048x1024_S512x1024_1_0_0_1_n_n = DotDims.plain 512 2048 1024 := rfl
theorem dot3_eq : dot_S512x1024_S1024x512_S512x512_1_0_0_1_n_n = DotDims.plain 512 1024 512 := rfl
theorem dot4_eq : dot_S512x512_S512x64_S512x64_1_0_0_1_n_n = DotDims.plain 512 512 64 := rfl

/-- The first payload (layers one and two) at row p, channel j. -/
theorem pay2_apply (P0 : Vec Ideal S512x64 .f32) (P1 : Vec Ideal S64x2048 .f32) (P2 P3 : Vec Ideal S1x2048 .f32)
    (P4 : Vec Ideal S2048x1024 .bf16) (P5 P6 : Vec Ideal S1x1024 .f32) (p : Fin 512) (j : Fin 1024) :
    k0_pay2 (F := Ideal) P0 P1 P2 P3 P4 P5 P6 (ix2 p j)
      = layerF (layerF (fun k => P0 (ix2 p k)) (fun k j => P1 (ix2 k j)) (fun j => P2 (ix2 (0 : Fin 1) j)) (fun j => P3 (ix2 (0 : Fin 1) j)))
          (fun k j => P4 (ix2 k j)) (fun j => P5 (ix2 (0 : Fin 1) j)) (fun j => P6 (ix2 (0 : Fin 1) j)) j := by
  unfold k0_pay2
  rw [truncf_apply, dot1_eq, dot2_eq]
  refine (blockLayer_apply none _ P4 P5 P6 _ _ _ p j).trans ?_
  congr 1
  funext k
  rw [truncf_apply]
  exact blockLayer_apply (some .fp32) P0 P1 P2 P3 _ _ _ p k

/-- A sum along the rows of a 512-by-64 block, read at row p. -/
theorem rowSum_apply (src : FVec Ideal S512x64 .f32) (h : S512x64.Reduces [1] S512) (hφ : FKind.Formats .f32)
    (hacc : (0x00000000#32 : BitVec 32) = 0x00000000#32) (p : Fin 512) :
    multiReduction .add [1] S512 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext c
  apply Fin.ext
  match c with
  | ⟨0, _⟩ => rfl
  | ⟨1, _⟩ => rfl

/-- The second payload (layers three and four, then the product with the last weight row summed along the row) at row p. -/
theorem pay3_apply (H : FVec Ideal S512x1024 .bf16) (P7 : Vec Ideal S1024x512 .bf16) (P8 P9 : Vec Ideal S1x512 .f32)
    (P10 : Vec Ideal S512x64 .bf16) (P11 P12 P13 : Vec Ideal S1x64 .f32) (p : Fin 512) :
    k0_pay3 (F := Ideal) H P7 P8 P9 P10 P11 P12 P13 (ix1 p)
      = ∑ k : Fin 64,
          layerF (layerF (fun k => H (ix2 p k)) (fun k j => P7 (ix2 k j)) (fun j => P8 (ix2 (0 : Fin 1) j)) (fun j => P9 (ix2 (0 : Fin 1) j)))
            (fun k j => P10 (ix2 k j)) (fun j => P11 (ix2 (0 : Fin 1) j)) (fun j => P12 (ix2 (0 : Fin 1) j)) k
          * P13 (ix2 (0 : Fin 1) k) := by
  unfold k0_pay3
  rw [dot3_eq, dot4_eq]
  refine (rowSum_apply _ _ _ _ p).trans ?_
  refine Finset.sum_congr rfl fun k _ => ?_
  rw [mulf_apply, broadcastTo_1b_ab_apply]
  congr 1
  refine (blockLayer_apply none _ P10 P11 P12 _ _ _ p k).trans ?_
  congr 1
  funext k'
  rw [truncf_apply]
  exact blockLayer_apply none H P7 P8 P9 _ _ _ p k'

end Cert.BinMlp

end
-- ==== Proof.KernelHost.lean ====
/-
  The arrays the kernel's launch hands to the body, as functions of the program's arguments.

  Before the launch the program signs and transposes the four weight matrices (input position first, so that a
  plain row-by-column product applies them), and folds each normalised layer's bias, running mean, running variance,
  gain and offset into one scale row  g · rsqrt (v + ε)  and one shift row  (b − mu) · scale + be,  each laid out as a
  one-row matrix; the last layer's bias becomes a one-by-one matrix. Read at an entry, each of these arrays is the
  corresponding entry of the specification's folded form.
-/
import proofs.«150261_j33036888441373_2_alg».proof.Proof.Gen.KernelIdeal.Frame
import proofs.«150261_j33036888441373_2_alg».proof.Proof.Net
import proofs.«150261_j33036888441373_2_alg».proof.Proof.LibDense
import Idealize.ShloMosaic.Lib.StableHlo.Run
import Idealize.ShloMosaic.Lib.ValueLayout
import Idealize.ShloMosaic.Lib.Pipeline.Value
import Idealize.ShloMosaic.PureOps.Ideal

noncomputable section

namespace Cert.BinMlp

open Idealize.ShloMosaic Idealize.ShloMosaic.ValueIdx Cert.Hand.Dense

/-! ## The three layouts, for any width -/

/-- A scale vector g · rsqrt (v + ε), laid out as a one-row matrix, read at a column. -/
theorem scale_row {n : Nat} (g v : A1 n) (hb : (⟨0, ![]⟩ : Shape).BroadcastsInDim ⟨1, ![n]⟩ ![])
    (hc : (⟨1, ![n]⟩ : Shape).ShapeCasts ⟨2, ![1, n]⟩) (j : Fin n) :
    shapeCast ⟨2, ![1, n]⟩ (mulf (φ := .f32) g (Host.rsqrt (addf v (broadcastInDim ⟨1, ![n]⟩ ![] hb (constant (F := Ideal) ⟨0, ![]⟩ .f32 0x3727C5AC#32))))) hc
        (ix2 (0 : Fin 1) j)
      = scaleK (g (ix1 j)) (v (ix1 j)) := by
  rw [shapeCast_a_1a_apply]
  show g (ix1 j) * Ideal.rsqrt (v (ix1 j) + broadcastInDim ⟨1, ![n]⟩ ![] hb (constant (F := Ideal) ⟨0, ![]⟩ .f32 0x3727C5AC#32) (ix1 j)) = _
  rw [spread_scalar_apply]
  rfl

/-- A shift vector (b − mu) · scale + be, laid out as a one-row matrix, read at a column. -/
theorem shift_row {n : Nat} (b mu g v be : A1 n) (hb : (⟨0, ![]⟩ : Shape).BroadcastsInDim ⟨1, ![n]⟩ ![])
    (hc : (⟨1, ![n]⟩ : Shape).ShapeCasts ⟨2, ![1, n]⟩) (j : Fin n) :
    shapeCast ⟨2, ![1, n]⟩ (addf (φ := .f32) (mulf (subf b mu)
          (mulf g (Host.rsqrt (addf v (broadcastInDim ⟨1, ![n]⟩ ![] hb (constant (F := Ideal) ⟨0, ![]⟩ .f32 0x3727C5AC#32)))))) be) hc
        (ix2 (0 : Fin 1) j)
      = shiftK (b (ix1 j)) (mu (ix1 j)) (g (ix1 j)) (v (ix1 j)) (be (ix1 j)) := by
  rw [shapeCast_a_1a_apply]
  show (b (ix1 j) - mu (ix1 j)) * (g (ix1 j) * Ideal.rsqrt (v (ix1 j) + broadcastInDim ⟨1, ![n]⟩ ![] hb (constant (F := Ideal) ⟨0, ![]⟩ .f32 0x3727C5AC#32) (ix1 j))) + be (ix1 j) = _
  rw [spread_scalar_apply]
  rfl

/-- A weight matrix signed entry by entry and transposed, read at (k, j): the sign of the entry at (j, k). -/
theorem signT {a b : Nat} (W : A2 a b) (ht : (⟨2, ![a, b]⟩ : Shape).Transposes [1, 0] ⟨2, ![b, a]⟩) (k : Fin b) (j : Fin a) :
    (transpose ⟨2, ![b, a]⟩ [1, 0] (Host.sign (F := Ideal) (φ := .f32) W) ht : (⟨2, ![b, a]⟩ : Shape).Idx → EReal) (ix2 k j) = Ideal.sign (W (ix2 j k)) := by
  rw [transpose_ix2_apply]
  rfl

/-! ## The window arrays of this program -/

open Cert.KernelIdeal Cert.KernelIdeal.Gen Idealize.ShloMosaic.TcCoe Idealize.SL.Sem Idealize.ShloMosaic.StableHlo

variable (m : (ℓ : Loc nD τ sig) → Buf (Elt Ideal) ℓ)

set_option maxHeartbeats 4000000 in
/-- The signed, transposed weights of the layer 64 → 2048, as the region finds them. -/
theorem V_main_v1 (c : Dev nD) (k : Fin 64) (j : Fin 2048) :
    (V m c main_v1 : S64x2048.Idx → EReal) (ix2 k j) = Ideal.sign ((m ((c : Thread nD τ).loc main_arg1)) (ix2 j k)) := by
  have e : (V m c main_v1 : S64x2048.Idx → EReal) = ((transpose S64x2048 [1, 0] (Host.sign (F := Ideal) (φ := .f32) (m ((c : Thread nD τ).loc main_arg1))) transposes_S2048x64_S64x2048_1_0) : S64x2048.Idx → EReal) := by
    dsimp only [Gen.V, Gen.hostOps0]; after_results_simp
  rw [e]; exact signT _ _ k j

set_option maxHeartbeats 4000000 in
/-- The signed, transposed weights of the layer 2048 → 1024, as the region finds them. -/
theorem V_main_v4 (c : Dev nD) (k : Fin 2048) (j : Fin 1024) :
    (V m c main_v4 : S2048x1024.Idx → EReal) (ix2 k j) = Ideal.sign ((m ((c : Thread nD τ).loc main_arg3)) (ix2 j k)) := by
  have e : (V m c main_v4 : S2048x1024.Idx → EReal) = (truncf .bf16 (transpose S2048x1024 [1, 0] (Host.sign (F := Ideal) (φ := .f32) (m ((c : Thread nD τ).loc main_arg3))) transposes_S1024x2048_S2048x1024_1_0) bitsLt_bf16_f32 : S2048x1024.Idx → EReal) := by
    dsimp only [Gen.V, Gen.hostOps0]; after_results_simp
  rw [e]; rw [truncf_apply]; exact signT _ _ k j

set_option maxHeartbeats 4000000 in
/-- The signed, transposed weights of the layer 1024 → 512, as the region finds them. -/
theorem V_main_v7 (c : Dev nD) (k : Fin 1024) (j : Fin 512) :
    (V m c main_v7 : S1024x512.Idx → EReal) (ix2 k j) = Ideal.sign ((m ((c : Thread nD τ).loc main_arg5)) (ix2 j k)) := by
  have e : (V m c main_v7 : S1024x512.Idx → EReal) = (truncf .bf16 (transpose S1024x512 [1, 0] (Host.sign (F := Ideal) (φ := .f32) (m ((c : Thread nD τ).loc main_arg5))) transposes_S512x1024_S1024x512_1_0) bitsLt_bf16_f32 : S1024x512.Idx → EReal) := by
    dsimp only [Gen.V, Gen.hostOps0]; after_results_simp
  rw [e]; rw [truncf_apply]; exact signT _ _ k j

set_option maxHeartbeats 4000000 in
/-- The signed, transposed weights of the layer 512 → 64, as the region finds them. -/
theorem V_main_v10 (c : Dev nD) (k : Fin 512) (j : Fin 64) :
    (V m c main_v10 : S512x64.Idx → EReal) (ix2 k j) = Ideal.sign ((m ((c : Thread nD τ).loc main_arg7)) (ix2 j k)) := by
  have e : (V m c main_v10 : S512x64.Idx → EReal) = (truncf .bf16 (transpose S512x64 [1, 0] (Host.sign (F := Ideal) (φ := .f32) (m ((c : Thread nD τ).loc main_arg7))) transposes_S64x512_S512x64_1_0) bitsLt_bf16_f32 : S512x64.Idx → EReal) := by
    dsimp only [Gen.V, Gen.hostOps0]; after_results_simp
  rw [e]; rw [truncf_apply]; exact signT _ _ k j

set_option maxHeartbeats 4000000 in
/-- The scale row of the layer of width 2048, as the region finds it. -/
theorem V_main_v19 (c : Dev nD) (j : Fin 2048) :
    (V m c main_v19 : S1x2048.Idx → EReal) (ix2 (0 : Fin 1) j) = scaleK ((m ((c : Thread nD τ).loc main_arg11)) (ix1 j)) ((m ((c : Thread nD τ).loc main_arg14)) (ix1 j)) := by
  have e : (V m c main_v19 : S1x2048.Idx → EReal)
      = shapeCast S1x2048 (mulf (m ((c : Thread nD τ).loc main_arg11)) (Host.rsqrt (addf (m ((c : Thread nD τ).loc main_arg14)) (broadcastInDim S2048 ![] bcast_S_S2048 (constant (F := Ideal) S_ .f32 0x3727C5AC#32))))) shapeCasts_S2048_S1x2048 := by
    dsimp only [Gen.V, Gen.hostOps0]; after_results_simp; rfl
  rw [e]; exact scale_row _ _ _ _ j

set_option maxHeartbeats 4000000 in
/-- The shift row of the layer of width 2048, as the region finds it. -/
theorem V_main_v20 (c : Dev nD) (j : Fin 2048) :
    (V m c main_v20 : S1x2048.Idx → EReal) (ix2 (0 : Fin 1) j)
      = shiftK ((m ((c : Thread nD τ).loc main_arg2)) (ix1 j)) ((m ((c : Thread nD τ).loc main_arg13)) (ix1 j)) ((m ((c : Thread nD τ).loc main_arg11)) (ix1 j)) ((m ((c : Thread nD τ).loc main_arg14)) (ix1 j)) ((m ((c : Thread nD τ).loc main_arg12)) (ix1 j)) := by
  have e : (V m c main_v20 : S1x2048.Idx → EReal)
      = shapeCast S1x2048 (addf (mulf (subf (m ((c : Thread nD τ).loc main_arg2)) (m ((c : Thread nD τ).loc main_arg13))) (mulf (m ((c : Thread nD τ).loc main_arg11)) (Host.rsqrt (addf (m ((c : Thread nD τ).loc main_arg14)) (broadcastInDim S2048 ![] bcast_S_S2048 (constant (F := Ideal) S_ .f32 0x3727C5AC#32)))))) (m ((c : Thread nD τ).loc main_arg12))) shapeCasts_S2048_S1x2048 := by
    dsimp only [Gen.V, Gen.hostOps0]; after_results_simp; rfl
  rw [e]; exact shift_row _ _ _ _ _ _ _ j

set_option maxHeartbeats 4000000 in
/-- The scale row of the layer of width 1024, as the region finds it. -/
theorem V_main_v28 (c : Dev nD) (j : Fin 1024) :
    (V m c main_v28 : S1x1024.Idx → EReal) (ix2 (0 : Fin 1) j) = scaleK ((m ((c : Thread nD τ).loc main_arg15)) (ix1 j)) ((m ((c : Thread nD τ).loc main_arg18)) (ix1 j)) := by
  have e : (V m c main_v28 : S1x1024.Idx → EReal)
      = shapeCast S1x1024 (mulf (m ((c : Thread nD τ).loc main_arg15)) (Host.rsqrt (addf (m ((c : Thread nD τ).loc main_arg18)) (broadcastInDim S1024 ![] bcast_S_S1024 (constant (F := Ideal) S_ .f32 0x3727C5AC#32))))) shapeCasts_S1024_S1x1024 := by
    dsimp only [Gen.V, Gen.hostOps0]; after_results_simp; rfl
  rw [e]; exact scale_row _ _ _ _ j

set_option maxHeartbeats 4000000 in
/-- The shift row of the layer of width 1024, as the region finds it. -/
theorem V_main_v29 (c : Dev nD) (j : Fin 1024) :
    (V m c main_v29 : S1x1024.Idx → EReal) (ix2 (0 : Fin 1) j)
      = shiftK ((m ((c : Thread nD τ).loc main_arg4)) (ix1 j)) ((m ((c : Thread nD τ).loc main_arg17)) (ix1 j)) ((m ((c : Thread nD τ).loc main_arg15)) (ix1 j)) ((m ((c : Thread nD τ).loc main_arg18)) (ix1 j)) ((m ((c : Thread nD τ).loc main_arg16)) (ix1 j)) := by
  have e : (V m c main_v29 : S1x1024.Idx → EReal)
      = shapeCast S1x1024 (addf (mulf (subf (m ((c : Thread nD τ).loc main_arg4)) (m ((c : Thread nD τ).loc main_arg17))) (mulf (m ((c : Thread nD τ).loc main_arg15)) (Host.rsqrt (addf (m ((c : Thread nD τ).loc main_arg18)) (broadcastInDim S1024 ![] bcast_S_S1024 (constant (F := Ideal) S_ .f32 0x3727C5AC#32)))))) (m ((c : Thread nD τ).loc main_arg16))) shapeCasts_S1024_S1x1024 := by
    dsimp only [Gen.V, Gen.hostOps0]; after_results_simp; rfl
  rw [e]; exact shift_row _ _ _ _ _ _ _ j

set_option maxHeartbeats 4000000 in
/-- The scale row of the layer of width 512, as the region finds it. -/
theorem V_main_v37 (c : Dev nD) (j : Fin 512) :
    (V m c main_v37 : S1x512.Idx → EReal) (ix2 (0 : Fin 1) j) = scaleK ((m ((c : Thread nD τ).loc main_arg19)) (ix1 j)) ((m ((c : Thread nD τ).loc main_arg22)) (ix1 j)) := by
  have e : (V m c main_v37 : S1x512.Idx → EReal)
      = shapeCast S1x512 (mulf (m ((c : Thread nD τ).loc main_arg19)) (Host.rsqrt (addf (m ((c : Thread nD τ).loc main_arg22)) (broadcastInDim S512 ![] bcast_S_S512 (constant (F := Ideal) S_ .f32 0x3727C5AC#32))))) shapeCasts_S512_S1x512 := by
    dsimp only [Gen.V, Gen.hostOps0]; after_results_simp; rfl
  rw [e]; exact scale_row _ _ _ _ j

set_option maxHeartbeats 4000000 in
/-- The shift row of the layer of width 512, as the region finds it. -/
theorem V_main_v38 (c : Dev nD) (j : Fin 512) :
    (V m c main_v38 : S1x512.Idx → EReal) (ix2 (0 : Fin 1) j)
      = shiftK ((m ((c : Thread nD τ).loc main_arg6)) (ix1 j)) ((m ((c : Thread nD τ).loc main_arg21)) (ix1 j)) ((m ((c : Thread nD τ).loc main_arg19)) (ix1 j)) ((m ((c : Thread nD τ).loc main_arg22)) (ix1 j)) ((m ((c : Thread nD τ).loc main_arg20)) (ix1 j)) := by
  have e : (V m c main_v38 : S1x512.Idx → EReal)
      = shapeCast S1x512 (addf (mulf (subf (m ((c : Thread nD τ).loc main_arg6)) (m ((c : Thread nD τ).loc main_arg21))) (mulf (m ((c : Thread nD τ).loc main_arg19)) (Host.rsqrt (addf (m ((c : Thread nD τ).loc main_arg22)) (broadcastInDim S512 ![] bcast_S_S512 (constant (F := Ideal) S_ .f32 0x3727C5AC#32)))))) (m ((c : Thread nD τ).loc main_arg20))) shapeCasts_S512_S1x512 := by
    dsimp only [Gen.V, Gen.hostOps0]; after_results_simp; rfl
  rw [e]; exact shift_row _ _ _ _ _ _ _ j

set_option maxHeartbeats 4000000 in
/-- The scale row of the layer of width 64, as the region finds it. -/
theorem V_main_v46 (c : Dev nD) (j : Fin 64) :
    (V m c main_v46 : S1x64.Idx → EReal) (ix2 (0 : Fin 1) j) = scaleK ((m ((c : Thread nD τ).loc main_arg23)) (ix1 j)) ((m ((c : Thread nD τ).loc main_arg26)) (ix1 j)) := by
  have e : (V m c main_v46 : S1x64.Idx → EReal)
      = shapeCast S1x64 (mulf (m ((c : Thread nD τ).loc main_arg23)) (Host.rsqrt (addf (m ((c : Thread nD τ).loc main_arg26)) (broadcastInDim S64 ![] bcast_S_S64 (constant (F := Ideal) S_ .f32 0x3727C5AC#32))))) shapeCasts_S64_S1x64 := by
    dsimp only [Gen.V, Gen.hostOps0]; after_results_simp; rfl
  rw [e]; exact scale_row _ _ _ _ j

set_option maxHeartbeats 4000000 in
/-- The shift row of the layer of width 64, as the region finds it. -/
theorem V_main_v47 (c : Dev nD) (j : Fin 64) :
    (V m c main_v47 : S1x64.Idx → EReal) (ix2 (0 : Fin 1) j)
      = shiftK ((m ((c : Thread nD τ).loc main_arg8)) (ix1 j)) ((m ((c : Thread nD τ).loc main_arg25)) (ix1 j)) ((m ((c : Thread nD τ).loc main_arg23)) (ix1 j)) ((m ((c : Thread nD τ).loc main_arg26)) (ix1 j)) ((m ((c : Thread nD τ).loc main_arg24)) (ix1 j)) := by
  have e : (V m c main_v47 : S1x64.Idx → EReal)
      = shapeCast S1x64 (addf (mulf (subf (m ((c : Thread nD τ).loc main_arg8)) (m ((c : Thread nD τ).loc main_arg25))) (mulf (m ((c : Thread nD τ).loc main_arg23)) (Host.rsqrt (addf (m ((c : Thread nD τ).loc main_arg26)) (broadcastInDim S64 ![] bcast_S_S64 (constant (F := Ideal) S_ .f32 0x3727C5AC#32)))))) (m ((c : Thread nD τ).loc main_arg24))) shapeCasts_S64_S1x64 := by
    dsimp only [Gen.V, Gen.hostOps0]; after_results_simp; rfl
  rw [e]; exact shift_row _ _ _ _ _ _ _ j

set_option maxHeartbeats 4000000 in
/-- The last layer's bias as a one-by-one matrix, as the region finds it. -/
theorem V_main_v11 (c : Dev nD) :
    (V m c main_v11 : S1x1.Idx → EReal) (ix2 (0 : Fin 1) (0 : Fin 1)) = (m ((c : Thread nD τ).loc main_arg10)) (ix1 (0 : Fin 1)) := by
  have e : (V m c main_v11 : S1x1.Idx → EReal) = shapeCast S1x1 (m ((c : Thread nD τ).loc main_arg10)) shapeCasts_S1_S1x1 := by
    dsimp only [Gen.V, Gen.hostOps0]; after_results_simp; rfl
  rw [e]; exact shapeCast_a_1a_apply _ _ _ _

end Cert.BinMlp

end
-- ==== Proof.KernelBlocks.lean ====
/-
  From blocks to the whole array: what the kernel leaves in its result.

  The grid has 64 points; point t stages rows 512·t … 512·t + 511 of x, every other operand whole, and writes back
  rows 512·t … 512·t + 511 of the one-column result. The body's stored block, read at row p, is the output unit applied
  to four folded layers of row p of the staged x-block; the staged weight, scale and shift arrays are the signed
  transposed weights and the folded scale and shift rows of the arguments. So point t writes back exactly block t of
  the specification's batch function, the 64 blocks tile the 32768 rows, and the result array is that function.
-/
import proofs.«150261_j33036888441373_2_alg».proof.Proof.ValueP
import proofs.«150261_j33036888441373_2_alg».proof.Proof.KernelPay
import proofs.«150261_j33036888441373_2_alg».proof.Proof.KernelHost

noncomputable section

namespace Cert.BinMlp

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's stored block at row p, over arbitrary staged blocks: the output unit on four folded layers of row p. -/
theorem out_apply (x0 : Vec Ideal S512x64 .f32) (x1 : Vec Ideal S64x2048 .f32) (x2 : Vec Ideal S2048x1024 .bf16)
    (x3 : Vec Ideal S1024x512 .bf16) (x4 : Vec Ideal S512x64 .bf16) (x5 : Vec Ideal S1x64 .f32) (x6 : Vec Ideal S1x1 .f32)
    (x7 x8 : Vec Ideal S1x2048 .f32) (x9 x10 : Vec Ideal S1x1024 .f32) (x11 x12 : Vec Ideal S1x512 .f32)
    (x13 x14 : Vec Ideal S1x64 .f32) (p : Fin 512) :
    out0_15 x0 x1 x2 x3 x4 x5 x6 x7 x8 x9 x10 x11 x12 x13 x14 (ix2 p (0 : Fin 1))
      = outK (layerF (layerF (layerF (layerF (fun k => x0 (ix2 p k))
              (fun k j => x1 (ix2 k j)) (fun j => x7 (ix2 (0 : Fin 1) j)) (fun j => x8 (ix2 (0 : Fin 1) j)))
              (fun k j => x2 (ix2 k j)) (fun j => x9 (ix2 (0 : Fin 1) j)) (fun j => x10 (ix2 (0 : Fin 1) j)))
              (fun k j => x3 (ix2 k j)) (fun j => x11 (ix2 (0 : Fin 1) j)) (fun j => x12 (ix2 (0 : Fin 1) j)))
              (fun k j => x4 (ix2 k j)) (fun j => x13 (ix2 (0 : Fin 1) j)) (fun j => x14 (ix2 (0 : Fin 1) j)))
          (fun k => x5 (ix2 (0 : Fin 1) k)) (x6 (ix2 (0 : Fin 1) (0 : Fin 1))) := by
  unfold out0_15
  rw [ValueP.canon15_eq]
  simp only [View.ld_unit_zero (S := S512x64) hz, View.ld_unit_zero (S := S64x2048) hz, View.ld_unit_zero (S := S1x2048) hz, View.ld_unit_zero (S := S2048x1024) hz, View.ld_unit_zero (S := S1x1024) hz, View.ld_unit_zero (S := S1024x512) hz, View.ld_unit_zero (S := S1x512) hz, View.ld_unit_zero (S := S1x64) hz, View.ld_unit_zero (S := S1x1) hz]
  have i0 : ValueP.ix15_0 (ix2 p (0 : Fin 1)) = ix1 p := funext fun a => match a with | ⟨0, _⟩ => rfl
  have i1 : ValueP.ix15_1 (ix2 p (0 : Fin 1)) = ix2 (0 : Fin 1) (0 : Fin 1) :=
    funext fun a => match a with | ⟨0, _⟩ => rfl | ⟨1, _⟩ => rfl
  show Ideal.logistic (k0_pay3 (F := Ideal) (k0_pay2 x0 x1 x7 x8 x2 x9 x10) x3 x11 x12 x4 x13 x14 x5 (ValueP.ix15_0 (ix2 p (0 : Fin 1)))
      + x6 (ValueP.ix15_1 (ix2 p (0 : Fin 1)))) = _
  rw [i0, i1, pay3_apply]
  have hH : (fun k : Fin 1024 => k0_pay2 (F := Ideal) x0 x1 x7 x8 x2 x9 x10 (ix2 p k))
      = layerF (layerF (fun k => x0 (ix2 p k)) (fun k j => x1 (ix2 k j)) (fun j => x7 (ix2 (0 : Fin 1) j)) (fun j => x8 (ix2 (0 : Fin 1) j)))
          (fun k j => x2 (ix2 k j)) (fun j => x9 (ix2 (0 : Fin 1) j)) (fun j => x10 (ix2 (0 : Fin 1) j)) :=
    funext fun k => pay2_apply x0 x1 x7 x8 x2 x9 x10 p k
  rw [hH]
  rfl

/-- The printed index maps, decided over the 64 grid points: x and the result move together along the rows, every other
    operand stays at block (0, 0). -/
theorem idx_facts : ∀ t : Fin cfg0.N, win0_0.index t (0 : Fin 2) = win0_15.index t (0 : Fin 2)
    ∧ win0_0.index t (1 : Fin 2) = 0
    ∧ win0_15.index t (1 : Fin 2) = 0
    ∧ win0_15.index t (0 : Fin 2) ≤ 63
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0 :=
  (by decide +kernel : ∀ t : Fin grid0.N, _)

/-- Every row block of the result is some point's. -/
theorem idx_onto : ∀ q : Fin 64, ∃ t : Fin cfg0.N, win0_15.index t = ![q.val, 0] :=
  (by decide +kernel : ∀ q : Fin 64, ∃ t : Fin grid0.N, win0_15.index t = ![q.val, 0])

theorem emb1 (t : Fin cfg0.N) (y : S64x2048.Idx) : ((cfg0.win 1).blk t).view.emb y = y := by
  have h0 := (idx_facts t).2.2.2.2.1
  have h1 := (idx_facts t).2.2.2.2.2.1
  funext a; apply Fin.ext
  match a with
  | ⟨0, _⟩ => show win0_1.index t (0 : Fin 2) * 64 + 1 * (y 0).val = (y 0).val; omega
  | ⟨1, _⟩ => show win0_1.index t (1 : Fin 2) * 2048 + 1 * (y 1).val = (y 1).val; omega

theorem emb2 (t : Fin cfg0.N) (y : S2048x1024.Idx) : ((cfg0.win 2).blk t).view.emb y = y := by
  have h0 := (idx_facts t).2.2.2.2.2.2.1
  have h1 := (idx_facts t).2.2.2.2.2.2.2.1
  funext a; apply Fin.ext
  match a with
  | ⟨0, _⟩ => show win0_2.index t (0 : Fin 2) * 2048 + 1 * (y 0).val = (y 0).val; omega
  | ⟨1, _⟩ => show win0_2.index t (1 : Fin 2) * 1024 + 1 * (y 1).val = (y 1).val; omega

theorem emb3 (t : Fin cfg0.N) (y : S1024x512.Idx) : ((cfg0.win 3).blk t).view.emb y = y := by
  have h0 := (idx_facts t).2.2.2.2.2.2.2.2.1
  have h1 := (idx_facts t).2.2.2.2.2.2.2.2.2.1
  funext a; apply Fin.ext
  match a with
  | ⟨0, _⟩ => show win0_3.index t (0 : Fin 2) * 1024 + 1 * (y 0).val = (y 0).val; omega
  | ⟨1, _⟩ => show win0_3.index t (1 : Fin 2) * 512 + 1 * (y 1).val = (y 1).val; omega

theorem emb4 (t : Fin cfg0.N) (y : S512x64.Idx) : ((cfg0.win 4).blk t).view.emb y = y := by
  have h0 := (idx_facts t).2.2.2.2.2.2.2.2.2.2.1
  have h1 := (idx_facts t).2.2.2.2.2.2.2.2.2.2.2.1
  funext a; apply Fin.ext
  match a with
  | ⟨0, _⟩ => show win0_4.index t (0 : Fin 2) * 512 + 1 * (y 0).val = (y 0).val; omega
  | ⟨1, _⟩ => show win0_4.index t (1 : Fin 2) * 64 + 1 * (y 1).val = (y 1).val; omega

theorem emb5 (t : Fin cfg0.N) (y : S1x64.Idx) : ((cfg0.win 5).blk t).view.emb y = y := by
  have h0 := (idx_facts t).2.2.2.2.2.2.2.2.2.2.2.2.1
  have h1 := (idx_facts t).2.2.2.2.2.2.2.2.2.2.2.2.2.1
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem emb6 (t : Fin cfg0.N) (y : S1x1.Idx) : ((cfg0.win 6).blk t).view.emb y = y := by
  have h0 := (idx_facts t).2.2.2.2.2.2.2.2.2.2.2.2.2.2.1
  have h1 := (idx_facts t).2.2.2.2.2.2.2.2.2.2.2.2.2.2.2.1
  funext a; apply Fin.ext
  match a with
  | ⟨0, _⟩ => show win0_6.index t (0 : Fin 2) * 1 + 1 * (y 0).val = (y 0).val; omega
  | ⟨1, _⟩ => show win0_6.index t (1 : Fin 2) * 1 + 1 * (y 1).val = (y 1).val; omega

theorem emb7 (t : Fin cfg0.N) (y : S1x2048.Idx) : ((cfg0.win 7).blk t).view.emb y = y := by
  have h0 := (idx_facts t).2.2.2.2.2.2.2.2.2.2.2.2.2.2.2.2.1
  have h1 := (idx_facts t).2.2.2.2.2.2.2.2.2.2.2.2.2.2.2.2.2.1
  funext a; apply Fin.ext
  match a with
  | ⟨0, _⟩ => show win0_7.index t (0 : Fin 2) * 1 + 1 * (y 0).val = (y 0).val; omega
  | ⟨1, _⟩ => show win0_7.index t (1 : Fin 2) * 2048 + 1 * (y 1).val = (y 1).val; omega

theorem emb8 (t : Fin cfg0.N) (y : S1x2048.Idx) : ((cfg0.win 8).blk t).view.emb y = y := by
  have h0 := (idx_facts t).2.2.2.2.2.2.2.2.2.2.2.2.2.2.2.2.2.2.1
  have h1 := (idx_facts t).2.2.2.2.2.2.2.2.2.2.2.2.2.2.2.2.2.2.2.1
  funext a; apply Fin.ext
  match a with
  | ⟨0, _⟩ => show win0_8.index t (0 : Fin 2) * 1 + 1 * (y 0).val = (y 0).val; omega
  | ⟨1, _⟩ => show win0_8.index t (1 : Fin 2) * 2048 + 1 * (y 1).val = (y 1).val; omega

theorem emb9 (t : Fin cfg0.N) (y : S1x1024.Idx) : ((cfg0.win 9).blk t).view.emb y = y := by
  have h0 := (idx_facts t).2.2.2.2.2.2.2.2.2.2.2.2.2.2.2.2.2.2.2.2.1
  have h1 := (idx_facts t).2.2.2.2.2.2.2.2.2.2.2.2.2.2.2.2.2.2.2.2.2.1
  funext a; apply Fin.ext
  match a with
  | ⟨0, _⟩ => show win0_9.index t (0 : Fin 2) * 1 + 1 * (y 0).val = (y 0).val; omega
  | ⟨1, _⟩ => show win0_9.index t (1 : Fin 2) * 1024 + 1 * (y 1).val = (y 1).val; omega

theorem emb10 (t : Fin cfg0.N) (y : S1x1024.Idx) : ((cfg0.win 10).blk t).view.emb y = y := by
  have h0 := (idx_facts t).2.2.2.2.2.2.2.2.2.2.2.2.2.2.2.2.2.2.2.2.2.2.1
  have h1 := (idx_facts t).2.2.2.2.2.2.2.2.2.2.2.2.2.2.2.2.2.2.2.2.2.2.2.1
  funext a; apply Fin.ext
  match a with
  | ⟨0, _⟩ => show win0_10.index t (0 : Fin 2) * 1 + 1 * (y 0).val = (y 0).val; omega
  | ⟨1, _⟩ => show win0_10.index t (1 : Fin 2) * 1024 + 1 * (y 1).val = (y 1).val; omega

theorem emb11 (t : Fin cfg0.N) (y : S1x512.Idx) : ((cfg0.win 11).blk t).view.emb y = y := by
  have h0 := (idx_facts t).2.2.2.2.2.2.2.2.2.2.2.2.2.2.2.2.2.2.2.2.2.2.2.2.1
  have h1 := (idx_facts t).2.2.2.2.2.2.2.2.2.2.2.2.2.2.2.2.2.2.2.2.2.2.2.2.2.1
  funext a; apply Fin.ext
  match a with
  | ⟨0, _⟩ => show win0_11.index t (0 : Fin 2) * 1 + 1 * (y 0).val = (y 0).val; omega
  | ⟨1, _⟩ => show win0_11.index t (1 : Fin 2) * 512 + 1 * (y 1).val = (y 1).val; omega

theorem emb12 (t : Fin cfg0.N) (y : S1x512.Idx) : ((cfg0.win 12).blk t).view.emb y = y := by
  have h0 := (idx_facts t).2.2.2.2.2.2.2.2.2.2.2.2.2.2.2.2.2.2.2.2.2.2.2.2.2.2.1
  have h1 := (idx_facts t).2.2.2.2.2.2.2.2.2.2.2.2.2.2.2.2.2.2.2.2.2.2.2.2.2.2.2.1
  funext a; apply Fin.ext
  match a with
  | ⟨0, _⟩ => show win0_12.index t (0 : Fin 2) * 1 + 1 * (y 0).val = (y 0).val; omega
  | ⟨1, _⟩ => show win0_12.index t (1 : Fin 2) * 512 + 1 * (y 1).val = (y 1).val; omega

theorem emb13 (t : Fin cfg0.N) (y : S1x64.Idx) : ((cfg0.win 13).blk t).view.emb y = y := by
  have h0 := (idx_facts t).2.2.2.2.2.2.2.2.2.2.2.2.2.2.2.2.2.2.2.2.2.2.2.2.2.2.2.2.1
  have h1 := (idx_facts t).2.2.2.2.2.2.2.2.2.2.2.2.2.2.2.2.2.2.2.2.2.2.2.2.2.2.2.2.2.1
  funext a; apply Fin.ext
  match a with
  | ⟨0, _⟩ => show win0_13.index t (0 : Fin 2) * 1 + 1 * (y 0).val = (y 0).val; omega
  | ⟨1, _⟩ => show win0_13.index t (1 : Fin 2) * 64 + 1 * (y 1).val = (y 1).val; omega

theorem emb14 (t : Fin cfg0.N) (y : S1x64.Idx) : ((cfg0.win 14).blk t).view.emb y = y := by
  have h0 := (idx_facts t).2.2.2.2.2.2.2.2.2.2.2.2.2.2.2.2.2.2.2.2.2.2.2.2.2.2.2.2.2.2.1
  have h1 := (idx_facts t).2.2.2.2.2.2.2.2.2.2.2.2.2.2.2.2.2.2.2.2.2.2.2.2.2.2.2.2.2.2.2
  funext a; apply Fin.ext
  match a with
  | ⟨0, _⟩ => show win0_14.index t (0 : Fin 2) * 1 + 1 * (y 0).val = (y 0).val; omega
  | ⟨1, _⟩ => show win0_14.index t (1 : Fin 2) * 64 + 1 * (y 1).val = (y 1).val; omega

/-! ## Each staged block, read at an entry, is the argument-side function of the specification -/

/-- Row p of point t's x-block is row 512·t + p of x: the row the result's block has at p. -/
theorem blk0 (c : Dev nD) (t : Fin cfg0.N) (p : Fin 512) (k : Fin 64) :
    iblk m c 0 t (ix2 p k) = (m ((c : Thread nD τ).loc main_arg0)) (ix2 (rowOf (((cfg0.win 15).blk t).view.emb (ix2 p (0 : Fin 1)))) k) := by
  show V m c main_arg0 (((cfg0.win 0).blk t).view.emb (ix2 p k)) = _
  rw [V_main_arg0]
  refine congrArg _ ?_
  obtain ⟨e0, e1, e2, e3, -⟩ := idx_facts t
  funext a; apply Fin.ext
  match a with
  | ⟨0, _⟩ => show win0_0.index t (0 : Fin 2) * 512 + 1 * p.val = win0_15.index t (0 : Fin 2) * 512 + 1 * p.val; omega
  | ⟨1, _⟩ => show win0_0.index t (1 : Fin 2) * 64 + 1 * k.val = k.val; omega

theorem blk1 (c : Dev nD) (t : Fin cfg0.N) (k : Fin 64) (j : Fin 2048) :
    iblk m c 1 t (ix2 k j) = Ideal.sign ((m ((c : Thread nD τ).loc main_arg1)) (ix2 j k)) := by
  show V m c main_v1 (((cfg0.win 1).blk t).view.emb (ix2 k j)) = _
  rw [emb1]; exact V_main_v1 m c k j

theorem blk2 (c : Dev nD) (t : Fin cfg0.N) (k : Fin 2048) (j : Fin 1024) :
    iblk m c 2 t (ix2 k j) = Ideal.sign ((m ((c : Thread nD τ).loc main_arg3)) (ix2 j k)) := by
  show V m c main_v4 (((cfg0.win 2).blk t).view.emb (ix2 k j)) = _
  rw [emb2]; exact V_main_v4 m c k j

theorem blk3 (c : Dev nD) (t : Fin cfg0.N) (k : Fin 1024) (j : Fin 512) :
    iblk m c 3 t (ix2 k j) = Ideal.sign ((m ((c : Thread nD τ).loc main_arg5)) (ix2 j k)) := by
  show V m c main_v7 (((cfg0.win 3).blk t).view.emb (ix2 k j)) = _
  rw [emb3]; exact V_main_v7 m c k j

theorem blk4 (c : Dev nD) (t : Fin cfg0.N) (k : Fin 512) (j : Fin 64) :
    iblk m c 4 t (ix2 k j) = Ideal.sign ((m ((c : Thread nD τ).loc main_arg7)) (ix2 j k)) := by
  show V m c main_v10 (((cfg0.win 4).blk t).view.emb (ix2 k j)) = _
  rw [emb4]; exact V_main_v10 m c k j

theorem blk5 (c : Dev nD) (t : Fin cfg0.N) (k : Fin 64) :
    iblk m c 5 t (ix2 (0 : Fin 1) k) = (m ((c : Thread nD τ).loc main_arg9)) (ix2 (0 : Fin 1) k) := by
  show V m c main_arg9 (((cfg0.win 5).blk t).view.emb (ix2 (0 : Fin 1) k)) = _
  rw [emb5, V_main_arg9]

theorem blk6 (c : Dev nD) (t : Fin cfg0.N) :
    iblk m c 6 t (ix2 (0 : Fin 1) (0 : Fin 1)) = (m ((c : Thread nD τ).loc main_arg10)) (ix1 (0 : Fin 1)) := by
  show V m c main_v11 (((cfg0.win 6).blk t).view.emb (ix2 (0 : Fin 1) (0 : Fin 1))) = _
  rw [emb6]; exact V_main_v11 m c

theorem blk7 (c : Dev nD) (t : Fin cfg0.N) (j : Fin 2048) :
    iblk m c 7 t (ix2 (0 : Fin 1) j) = scaleK ((m ((c : Thread nD τ).loc main_arg11)) (ix1 j)) ((m ((c : Thread nD τ).loc main_arg14)) (ix1 j)) := by
  show V m c main_v19 (((cfg0.win 7).blk t).view.emb (ix2 (0 : Fin 1) j)) = _
  rw [emb7]; exact V_main_v19 m c j

theorem blk8 (c : Dev nD) (t : Fin cfg0.N) (j : Fin 2048) :
    iblk m c 8 t (ix2 (0 : Fin 1) j)
      = shiftK ((m ((c : Thread nD τ).loc main_arg2)) (ix1 j)) ((m ((c : Thread nD τ).loc main_arg13)) (ix1 j)) ((m ((c : Thread nD τ).loc main_arg11)) (ix1 j)) ((m ((c : Thread nD τ).loc main_arg14)) (ix1 j)) ((m ((c : Thread nD τ).loc main_arg12)) (ix1 j)) := by
  show V m c main_v20 (((cfg0.win 8).blk t).view.emb (ix2 (0 : Fin 1) j)) = _
  rw [emb8]; exact V_main_v20 m c j

theorem blk9 (c : Dev nD) (t : Fin cfg0.N) (j : Fin 1024) :
    iblk m c 9 t (ix2 (0 : Fin 1) j) = scaleK ((m ((c : Thread nD τ).loc main_arg15)) (ix1 j)) ((m ((c : Thread nD τ).loc main_arg18)) (ix1 j)) := by
  show V m c main_v28 (((cfg0.win 9).blk t).view.emb (ix2 (0 : Fin 1) j)) = _
  rw [emb9]; exact V_main_v28 m c j

theorem blk10 (c : Dev nD) (t : Fin cfg0.N) (j : Fin 1024) :
    iblk m c 10 t (ix2 (0 : Fin 1) j)
      = shiftK ((m ((c : Thread nD τ).loc main_arg4)) (ix1 j)) ((m ((c : Thread nD τ).loc main_arg17)) (ix1 j)) ((m ((c : Thread nD τ).loc main_arg15)) (ix1 j)) ((m ((c : Thread nD τ).loc main_arg18)) (ix1 j)) ((m ((c : Thread nD τ).loc main_arg16)) (ix1 j)) := by
  show V m c main_v29 (((cfg0.win 10).blk t).view.emb (ix2 (0 : Fin 1) j)) = _
  rw [emb10]; exact V_main_v29 m c j

theorem blk11 (c : Dev nD) (t : Fin cfg0.N) (j : Fin 512) :
    iblk m c 11 t (ix2 (0 : Fin 1) j) = scaleK ((m ((c : Thread nD τ).loc main_arg19)) (ix1 j)) ((m ((c : Thread nD τ).loc main_arg22)) (ix1 j)) := by
  show V m c main_v37 (((cfg0.win 11).blk t).view.emb (ix2 (0 : Fin 1) j)) = _
  rw [emb11]; exact V_main_v37 m c j

theorem blk12 (c : Dev nD) (t : Fin cfg0.N) (j : Fin 512) :
    iblk m c 12 t (ix2 (0 : Fin 1) j)
      = shiftK ((m ((c : Thread nD τ).loc main_arg6)) (ix1 j)) ((m ((c : Thread nD τ).loc main_arg21)) (ix1 j)) ((m ((c : Thread nD τ).loc main_arg19)) (ix1 j)) ((m ((c : Thread nD τ).loc main_arg22)) (ix1 j)) ((m ((c : Thread nD τ).loc main_arg20)) (ix1 j)) := by
  show V m c main_v38 (((cfg0.win 12).blk t).view.emb (ix2 (0 : Fin 1) j)) = _
  rw [emb12]; exact V_main_v38 m c j

theorem blk13 (c : Dev nD) (t : Fin cfg0.N) (j : Fin 64) :
    iblk m c 13 t (ix2 (0 : Fin 1) j) = scaleK ((m ((c : Thread nD τ).loc main_arg23)) (ix1 j)) ((m ((c : Thread nD τ).loc main_arg26)) (ix1 j)) := by
  show V m c main_v46 (((cfg0.win 13).blk t).view.emb (ix2 (0 : Fin 1) j)) = _
  rw [emb13]; exact V_main_v46 m c j

theorem blk14 (c : Dev nD) (t : Fin cfg0.N) (j : Fin 64) :
    iblk m c 14 t (ix2 (0 : Fin 1) j)
      = shiftK ((m ((c : Thread nD τ).loc main_arg8)) (ix1 j)) ((m ((c : Thread nD τ).loc main_arg25)) (ix1 j)) ((m ((c : Thread nD τ).loc main_arg23)) (ix1 j)) ((m ((c : Thread nD τ).loc main_arg26)) (ix1 j)) ((m ((c : Thread nD τ).loc main_arg24)) (ix1 j)) := by
  show V m c main_v47 (((cfg0.win 14).blk t).view.emb (ix2 (0 : Fin 1) j)) = _
  rw [emb14]; exact V_main_v47 m c j

/-- The specification's batch function at this memory's arguments. -/
def GKm (c : Dev nD) : S32768x1.Idx → EReal :=
  GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))

/-- Point t writes back block t of the batch function. -/
theorem flushed_eq (c : Dev nD) (t : Fin cfg0.N) :
    (dats m 0 c).flushed 15 t = ((cfg0.win 15).blk t).view.read (Elt Ideal) (GKm m c) := by
  rw [ValueP.flushed15]
  funext y
  obtain ⟨p, q, rfl⟩ : ∃ (p : Fin 512) (q : Fin 1), y = ix2 p q := ⟨y 0, y 1, eq_ix2 y⟩
  have hq : q = 0 := Fin.ext (by omega)
  subst hq
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p (0 : Fin 1))
      = GKm m c (((cfg0.win 15).blk t).view.emb (ix2 p (0 : Fin 1)))
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p).trans ?_
  simp only [blk0 m c t, blk1 m c t, blk2 m c t, blk3 m c t, blk4 m c t, blk5 m c t, blk6 m c t, blk7 m c t, blk8 m c t, blk9 m c t, blk10 m c t, blk11 m c t, blk12 m c t, blk13 m c t, blk14 m c t]
  rfl

/-- The 64 row blocks tile the result: row r lies in the block of point r / 512. -/
theorem covered (i : S32768x1.Idx) :
    ∃ t : Fin cfg0.N, (cfg0.win 15).flush t = true ∧ i ∈ ((cfg0.win 15).blk t).view.set := by
  have hi0 : (i 0).val < 32768 := (i 0).isLt
  have hi1 : (i 1).val < 1 := (i 1).isLt
  obtain ⟨t, ht⟩ := idx_onto ⟨(i 0).val / 512, by omega⟩
  have q0 : win0_15.index t (0 : Fin 2) = (i 0).val / 512 := congrFun ht 0
  have q1 : win0_15.index t (1 : Fin 2) = 0 := congrFun ht 1
  refine ⟨t, flush0_15 t, ?_⟩
  show i ∈ ((View.whole main_v48).slice (win0_15.rect t)).set
  rw [View.set_slice_whole, Rect.mem_set_unit]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 1 ≤ (i 1).val ∧ (i 1).val < win0_15.index t (1 : Fin 2) * 1 + 1; omega

/-- The result array after the run is the batch function of the arguments. -/
theorem final (c : Dev nD) : (dats m 0 c).arrAt 15 cfg0.N = GKm m c :=
  (dats m 0 c).arrAt_eq_of_cover 15 (GKm m c) (fun t _ => flushed_eq m c t) covered

/-- The kernel's run, its result named: the batch function of the arguments, and the arguments unchanged. -/
theorem kernel_run : θ_run defs (onTc (τ := τ) (main (F := Ideal))) ⟨m, fun _ => 0, ρ⟩ fun r => ∀ c : Dev nD,
      r.2.mem ((c : Thread nD τ).loc main_v48) = GKm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨(h c).1.trans (final m c), (h c).2⟩) (ValueP.run_blocks m ρ)

end Cert.BinMlp

end
-- ==== Proof.RefRead.lean ====
/-
  The reference program computes the layered form of the binarized multilayer perceptron.

  Its result at row r is read back one operation at a time.  Each of the four hidden layers is, at row r and
  channel j,  act (((∑ k, h k · ste (W j k)) + b j − mu j) · (g j / √(v j + ε)) + be j)  with h the previous row,
  ste w = w + (sign w − w)  and  act y = ste (clip 0 1 (clip (−1) 1 y)):  the weights enter transposed, so the
  contraction over k reads them at (j, k); bias, mean, scale and offset are vectors over the channels broadcast
  along the rows, so they are read at j alone.  The output unit is  1 / (1 + exp (−(∑ k, h k · w k + c))).
  Layer by layer the value at (r, j) is the layered form of the previous row, and the last statement assembles
  the rows into the batch function.
-/
import proofs.«150261_j33036888441373_2_alg».proof.Proof.Gen.ReferenceIdeal.Read
import proofs.«150261_j33036888441373_2_alg».proof.Proof.Net
import Idealize.ShloMosaic.Lib.ValueIdx
import Idealize.ShloMosaic.Lib.ValueLayout
import Idealize.ShloMosaic.Lib.Pipeline.Value
import Idealize.ShloMosaic.PureOps.Ideal.Laws

noncomputable section

namespace Cert.BinMlp.Ref

open Cert.ReferenceIdeal Cert.ReferenceIdeal.Read Idealize.ShloMosaic Idealize.ShloMosaic.ValueIdx

variable (x0 : (⟨S32768x64, .f32⟩ : BufTy).Contents (Elt Ideal))
  (x1 : (⟨S2048x64, .f32⟩ : BufTy).Contents (Elt Ideal))
  (x2 : (⟨S2048, .f32⟩ : BufTy).Contents (Elt Ideal))
  (x3 : (⟨S1024x2048, .f32⟩ : BufTy).Contents (Elt Ideal))
  (x4 : (⟨S1024, .f32⟩ : BufTy).Contents (Elt Ideal))
  (x5 : (⟨S512x1024, .f32⟩ : BufTy).Contents (Elt Ideal))
  (x6 : (⟨S512, .f32⟩ : BufTy).Contents (Elt Ideal))
  (x7 : (⟨S64x512, .f32⟩ : BufTy).Contents (Elt Ideal))
  (x8 : (⟨S64, .f32⟩ : BufTy).Contents (Elt Ideal))
  (x9 : (⟨S1x64, .f32⟩ : BufTy).Contents (Elt Ideal))
  (x10 : (⟨S1, .f32⟩ : BufTy).Contents (Elt Ideal))
  (x11 : (⟨S2048, .f32⟩ : BufTy).Contents (Elt Ideal))
  (x12 : (⟨S2048, .f32⟩ : BufTy).Contents (Elt Ideal))
  (x13 : (⟨S2048, .f32⟩ : BufTy).Contents (Elt Ideal))
  (x14 : (⟨S2048, .f32⟩ : BufTy).Contents (Elt Ideal))
  (x15 : (⟨S1024, .f32⟩ : BufTy).Contents (Elt Ideal))
  (x16 : (⟨S1024, .f32⟩ : BufTy).Contents (Elt Ideal))
  (x17 : (⟨S1024, .f32⟩ : BufTy).Contents (Elt Ideal))
  (x18 : (⟨S1024, .f32⟩ : BufTy).Contents (Elt Ideal))
  (x19 : (⟨S512, .f32⟩ : BufTy).Contents (Elt Ideal))
  (x20 : (⟨S512, .f32⟩ : BufTy).Contents (Elt Ideal))
  (x21 : (⟨S512, .f32⟩ : BufTy).Contents (Elt Ideal))
  (x22 : (⟨S512, .f32⟩ : BufTy).Contents (Elt Ideal))
  (x23 : (⟨S64, .f32⟩ : BufTy).Contents (Elt Ideal))
  (x24 : (⟨S64, .f32⟩ : BufTy).Contents (Elt Ideal))
  (x25 : (⟨S64, .f32⟩ : BufTy).Contents (Elt Ideal))
  (x26 : (⟨S64, .f32⟩ : BufTy).Contents (Elt Ideal))

/-! ## Layer 1: 64 → 2048 -/

/-- Row `r` after layer 1, in the layered form. -/
def row1 (r : Fin 32768) : Fin 2048 → EReal :=
  layerR (fun k : Fin 64 => x0 (ix2 r k)) (@mat 2048 64 x1) (vec x2) (vec x13) (vec x11) (vec x14) (vec x12)

/-- The contraction reads row `r` of the left factor at column `k`. -/
theorem left1 (r : Fin 32768) (j : Fin 2048) (k : Fin 64) :
    lidx_main_v4 (ix2 r j) k = ix2 r k :=
  funext fun a => Fin.ext (by match a with | ⟨0, _⟩ => rfl | ⟨1, _⟩ => rfl)

/-- The contraction reads the transposed weights at `(k, j)`, that is the weights at `(j, k)`. -/
theorem right1 (r : Fin 32768) (j : Fin 2048) (k : Fin 64) :
    idx_main_v3 (ridx_main_v4 (ix2 r j) k) = ix2 j k :=
  funext fun a => Fin.ext (by match a with | ⟨0, _⟩ => rfl | ⟨1, _⟩ => rfl)

/-- The bias, broadcast along the rows, is read at channel `j`. -/
theorem bias1 (r : Fin 32768) (j : Fin 2048) :
    idx_main_v5 (idx_main_v6 (ix2 r j)) = ix1 j :=
  funext fun a => Fin.ext (by match a with | ⟨0, _⟩ => rfl)

/-- The running mean, broadcast along the rows, is read at channel `j`. -/
theorem mean1 (r : Fin 32768) (j : Fin 2048) :
    idx_main_v8 (idx_main_v9 (ix2 r j)) = ix1 j :=
  funext fun a => Fin.ext (by match a with | ⟨0, _⟩ => rfl)

/-- The scale, broadcast along the rows, is read at channel `j`. -/
theorem scale1 (r : Fin 32768) (j : Fin 2048) :
    idx_main_v15 (idx_main_v16 (ix2 r j)) = ix1 j :=
  funext fun a => Fin.ext (by match a with | ⟨0, _⟩ => rfl)

/-- The offset, broadcast along the rows, is read at channel `j`. -/
theorem offset1 (r : Fin 32768) (j : Fin 2048) :
    idx_main_v18 (idx_main_v19 (ix2 r j)) = ix1 j :=
  funext fun a => Fin.ext (by match a with | ⟨0, _⟩ => rfl)

/-- Layer 1 of the reference at row `r`, channel `j`: the layered form applied to the previous row. -/
theorem layer1 (r : Fin 32768) (j : Fin 2048) :
    val_main_v25 (F := Ideal) x0 x1 x2 x11 x12 x13 x14 (ix2 r j)
      = row1 x0 x1 x2 x11 x12 x13 x14 r j := by
  simp only [val_main_v25_apply, val_main_v24_apply, val_main_v23_apply, val_main_v22_apply, val_main_call1_v4_apply, val_main_call1_v3_apply, val_main_call1_v2_apply, val_main_call1_v1_apply, val_main_call1_v0_apply, val_main_cst_3_apply, val_main_cst_2_apply, val_main_v21_apply, val_main_call0_v4_apply, val_main_call0_v3_apply, val_main_call0_v2_apply, val_main_call0_v1_apply, val_main_call0_v0_apply, val_main_cst_1_apply, val_main_cst_0_apply, val_main_v20_apply, val_main_v19_apply, val_main_v18_apply, val_main_v17_apply, val_main_v16_apply, val_main_v15_apply, val_main_v14_apply, val_main_v13_apply, val_main_v12_apply, val_main_v11_apply, val_main_cst_apply, val_main_v10_apply, val_main_v9_apply, val_main_v8_apply, val_main_v7_apply, val_main_v6_apply, val_main_v5_apply, val_main_v4_apply, val_main_v3_apply, val_main_v2_apply, val_main_v1_apply, val_main_v0_apply,
    left1, right1, bias1, mean1, scale1, offset1,
    Ideal.ofBits_def, Ideal.addf_def, Ideal.subf_def, Ideal.mulf_def, Ideal.hostDivf_def, Ideal.maximumf_def,
    Ideal.minimumf_def, Ideal.hostUnary_sign_def, Ideal.hostUnary_sqrt_def]
  rfl

/-! ## Layer 2: 2048 → 1024 -/

/-- Row `r` after layer 2, in the layered form. -/
def row2 (r : Fin 32768) : Fin 1024 → EReal :=
  layerR (row1 x0 x1 x2 x11 x12 x13 x14 r) (@mat 1024 2048 x3) (vec x4) (vec x17) (vec x15) (vec x18) (vec x16)

/-- The contraction reads row `r` of the left factor at column `k`. -/
theorem left2 (r : Fin 32768) (j : Fin 1024) (k : Fin 2048) :
    lidx_main_v30 (ix2 r j) k = ix2 r k :=
  funext fun a => Fin.ext (by match a with | ⟨0, _⟩ => rfl | ⟨1, _⟩ => rfl)

/-- The contraction reads the transposed weights at `(k, j)`, that is the weights at `(j, k)`. -/
theorem right2 (r : Fin 32768) (j : Fin 1024) (k : Fin 2048) :
    idx_main_v29 (ridx_main_v30 (ix2 r j) k) = ix2 j k :=
  funext fun a => Fin.ext (by match a with | ⟨0, _⟩ => rfl | ⟨1, _⟩ => rfl)

/-- The bias, broadcast along the rows, is read at channel `j`. -/
theorem bias2 (r : Fin 32768) (j : Fin 1024) :
    idx_main_v31 (idx_main_v32 (ix2 r j)) = ix1 j :=
  funext fun a => Fin.ext (by match a with | ⟨0, _⟩ => rfl)

/-- The running mean, broadcast along the rows, is read at channel `j`. -/
theorem mean2 (r : Fin 32768) (j : Fin 1024) :
    idx_main_v34 (idx_main_v35 (ix2 r j)) = ix1 j :=
  funext fun a => Fin.ext (by match a with | ⟨0, _⟩ => rfl)

/-- The scale, broadcast along the rows, is read at channel `j`. -/
theorem scale2 (r : Fin 32768) (j : Fin 1024) :
    idx_main_v41 (idx_main_v42 (ix2 r j)) = ix1 j :=
  funext fun a => Fin.ext (by match a with | ⟨0, _⟩ => rfl)

/-- The offset, broadcast along the rows, is read at channel `j`. -/
theorem offset2 (r : Fin 32768) (j : Fin 1024) :
    idx_main_v44 (idx_main_v45 (ix2 r j)) = ix1 j :=
  funext fun a => Fin.ext (by match a with | ⟨0, _⟩ => rfl)

/-- Layer 2 of the reference at row `r`, channel `j`: the layered form applied to the previous row. -/
theorem layer2 (r : Fin 32768) (j : Fin 1024) :
    val_main_v51 (F := Ideal) x0 x1 x2 x3 x4 x11 x12 x13 x14 x15 x16 x17 x18 (ix2 r j)
      = row2 x0 x1 x2 x3 x4 x11 x12 x13 x14 x15 x16 x17 x18 r j := by
  simp only [val_main_v51_apply, val_main_v50_apply, val_main_v49_apply, val_main_v48_apply, val_main_call3_v4_apply, val_main_call3_v3_apply, val_main_call3_v2_apply, val_main_call3_v1_apply, val_main_call3_v0_apply, val_main_cst_8_apply, val_main_cst_7_apply, val_main_v47_apply, val_main_call2_v4_apply, val_main_call2_v3_apply, val_main_call2_v2_apply, val_main_call2_v1_apply, val_main_call2_v0_apply, val_main_cst_6_apply, val_main_cst_5_apply, val_main_v46_apply, val_main_v45_apply, val_main_v44_apply, val_main_v43_apply, val_main_v42_apply, val_main_v41_apply, val_main_v40_apply, val_main_v39_apply, val_main_v38_apply, val_main_v37_apply, val_main_cst_4_apply, val_main_v36_apply, val_main_v35_apply, val_main_v34_apply, val_main_v33_apply, val_main_v32_apply, val_main_v31_apply, val_main_v30_apply, val_main_v29_apply, val_main_v28_apply, val_main_v27_apply, val_main_v26_apply,
    left2, right2, bias2, mean2, scale2, offset2, layer1,
    Ideal.ofBits_def, Ideal.addf_def, Ideal.subf_def, Ideal.mulf_def, Ideal.hostDivf_def, Ideal.maximumf_def,
    Ideal.minimumf_def, Ideal.hostUnary_sign_def, Ideal.hostUnary_sqrt_def]
  rfl

/-! ## Layer 3: 1024 → 512 -/

/-- Row `r` after layer 3, in the layered form. -/
def row3 (r : Fin 32768) : Fin 512 → EReal :=
  layerR (row2 x0 x1 x2 x3 x4 x11 x12 x13 x14 x15 x16 x17 x18 r) (@mat 512 1024 x5) (vec x6) (vec x21) (vec x19) (vec x22) (vec x20)

/-- The contraction reads row `r` of the left factor at column `k`. -/
theorem left3 (r : Fin 32768) (j : Fin 512) (k : Fin 1024) :
    lidx_main_v56 (ix2 r j) k = ix2 r k :=
  funext fun a => Fin.ext (by match a with | ⟨0, _⟩ => rfl | ⟨1, _⟩ => rfl)

/-- The contraction reads the transposed weights at `(k, j)`, that is the weights at `(j, k)`. -/
theorem right3 (r : Fin 32768) (j : Fin 512) (k : Fin 1024) :
    idx_main_v55 (ridx_main_v56 (ix2 r j) k) = ix2 j k :=
  funext fun a => Fin.ext (by match a with | ⟨0, _⟩ => rfl | ⟨1, _⟩ => rfl)

/-- The bias, broadcast along the rows, is read at channel `j`. -/
theorem bias3 (r : Fin 32768) (j : Fin 512) :
    idx_main_v57 (idx_main_v58 (ix2 r j)) = ix1 j :=
  funext fun a => Fin.ext (by match a with | ⟨0, _⟩ => rfl)

/-- The running mean, broadcast along the rows, is read at channel `j`. -/
theorem mean3 (r : Fin 32768) (j : Fin 512) :
    idx_main_v60 (idx_main_v61 (ix2 r j)) = ix1 j :=
  funext fun a => Fin.ext (by match a with | ⟨0, _⟩ => rfl)

/-- The scale, broadcast along the rows, is read at channel `j`. -/
theorem scale3 (r : Fin 32768) (j : Fin 512) :
    idx_main_v67 (idx_main_v68 (ix2 r j)) = ix1 j :=
  funext fun a => Fin.ext (by match a with | ⟨0, _⟩ => rfl)

/-- The offset, broadcast along the rows, is read at channel `j`. -/
theorem offset3 (r : Fin 32768) (j : Fin 512) :
    idx_main_v70 (idx_main_v71 (ix2 r j)) = ix1 j :=
  funext fun a => Fin.ext (by match a with | ⟨0, _⟩ => rfl)

/-- Layer 3 of the reference at row `r`, channel `j`: the layered form applied to the previous row. -/
theorem layer3 (r : Fin 32768) (j : Fin 512) :
    val_main_v77 (F := Ideal) x0 x1 x2 x3 x4 x5 x6 x11 x12 x13 x14 x15 x16 x17 x18 x19 x20 x21 x22 (ix2 r j)
      = row3 x0 x1 x2 x3 x4 x5 x6 x11 x12 x13 x14 x15 x16 x17 x18 x19 x20 x21 x22 r j := by
  simp only [val_main_v77_apply, val_main_v76_apply, val_main_v75_apply, val_main_v74_apply, val_main_call5_v4_apply, val_main_call5_v3_apply, val_main_call5_v2_apply, val_main_call5_v1_apply, val_main_call5_v0_apply, val_main_cst_13_apply, val_main_cst_12_apply, val_main_v73_apply, val_main_call4_v4_apply, val_main_call4_v3_apply, val_main_call4_v2_apply, val_main_call4_v1_apply, val_main_call4_v0_apply, val_main_cst_11_apply, val_main_cst_10_apply, val_main_v72_apply, val_main_v71_apply, val_main_v70_apply, val_main_v69_apply, val_main_v68_apply, val_main_v67_apply, val_main_v66_apply, val_main_v65_apply, val_main_v64_apply, val_main_v63_apply, val_main_cst_9_apply, val_main_v62_apply, val_main_v61_apply, val_main_v60_apply, val_main_v59_apply, val_main_v58_apply, val_main_v57_apply, val_main_v56_apply, val_main_v55_apply, val_main_v54_apply, val_main_v53_apply, val_main_v52_apply,
    left3, right3, bias3, mean3, scale3, offset3, layer2,
    Ideal.ofBits_def, Ideal.addf_def, Ideal.subf_def, Ideal.mulf_def, Ideal.hostDivf_def, Ideal.maximumf_def,
    Ideal.minimumf_def, Ideal.hostUnary_sign_def, Ideal.hostUnary_sqrt_def]
  rfl

/-! ## Layer 4: 512 → 64 -/

/-- Row `r` after layer 4, in the layered form. -/
def row4 (r : Fin 32768) : Fin 64 → EReal :=
  layerR (row3 x0 x1 x2 x3 x4 x5 x6 x11 x12 x13 x14 x15 x16 x17 x18 x19 x20 x21 x22 r) (@mat 64 512 x7) (vec x8) (vec x25) (vec x23) (vec x26) (vec x24)

/-- The contraction reads row `r` of the left factor at column `k`. -/
theorem left4 (r : Fin 32768) (j : Fin 64) (k : Fin 512) :
    lidx_main_v82 (ix2 r j) k = ix2 r k :=
  funext fun a => Fin.ext (by match a with | ⟨0, _⟩ => rfl | ⟨1, _⟩ => rfl)

/-- The contraction reads the transposed weights at `(k, j)`, that is the weights at `(j, k)`. -/
theorem right4 (r : Fin 32768) (j : Fin 64) (k : Fin 512) :
    idx_main_v81 (ridx_main_v82 (ix2 r j) k) = ix2 j k :=
  funext fun a => Fin.ext (by match a with | ⟨0, _⟩ => rfl | ⟨1, _⟩ => rfl)

/-- The bias, broadcast along the rows, is read at channel `j`. -/
theorem bias4 (r : Fin 32768) (j : Fin 64) :
    idx_main_v83 (idx_main_v84 (ix2 r j)) = ix1 j :=
  funext fun a => Fin.ext (by match a with | ⟨0, _⟩ => rfl)

/-- The running mean, broadcast along the rows, is read at channel `j`. -/
theorem mean4 (r : Fin 32768) (j : Fin 64) :
    idx_main_v86 (idx_main_v87 (ix2 r j)) = ix1 j :=
  funext fun a => Fin.ext (by match a with | ⟨0, _⟩ => rfl)

/-- The scale, broadcast along the rows, is read at channel `j`. -/
theorem scale4 (r : Fin 32768) (j : Fin 64) :
    idx_main_v93 (idx_main_v94 (ix2 r j)) = ix1 j :=
  funext fun a => Fin.ext (by match a with | ⟨0, _⟩ => rfl)

/-- The offset, broadcast along the rows, is read at channel `j`. -/
theorem offset4 (r : Fin 32768) (j : Fin 64) :
    idx_main_v96 (idx_main_v97 (ix2 r j)) = ix1 j :=
  funext fun a => Fin.ext (by match a with | ⟨0, _⟩ => rfl)

/-- Layer 4 of the reference at row `r`, channel `j`: the layered form applied to the previous row. -/
theorem layer4 (r : Fin 32768) (j : Fin 64) :
    val_main_v103 (F := Ideal) x0 x1 x2 x3 x4 x5 x6 x7 x8 x11 x12 x13 x14 x15 x16 x17 x18 x19 x20 x21 x22 x23 x24 x25 x26 (ix2 r j)
      = row4 x0 x1 x2 x3 x4 x5 x6 x7 x8 x11 x12 x13 x14 x15 x16 x17 x18 x19 x20 x21 x22 x23 x24 x25 x26 r j := by
  simp only [val_main_v103_apply, val_main_v102_apply, val_main_v101_apply, val_main_v100_apply, val_main_call7_v4_apply, val_main_call7_v3_apply, val_main_call7_v2_apply, val_main_call7_v1_apply, val_main_call7_v0_apply, val_main_cst_18_apply, val_main_cst_17_apply, val_main_v99_apply, val_main_call6_v4_apply, val_main_call6_v3_apply, val_main_call6_v2_apply, val_main_call6_v1_apply, val_main_call6_v0_apply, val_main_cst_16_apply, val_main_cst_15_apply, val_main_v98_apply, val_main_v97_apply, val_main_v96_apply, val_main_v95_apply, val_main_v94_apply, val_main_v93_apply, val_main_v92_apply, val_main_v91_apply, val_main_v90_apply, val_main_v89_apply, val_main_cst_14_apply, val_main_v88_apply, val_main_v87_apply, val_main_v86_apply, val_main_v85_apply, val_main_v84_apply, val_main_v83_apply, val_main_v82_apply, val_main_v81_apply, val_main_v80_apply, val_main_v79_apply, val_main_v78_apply,
    left4, right4, bias4, mean4, scale4, offset4, layer3,
    Ideal.ofBits_def, Ideal.addf_def, Ideal.subf_def, Ideal.mulf_def, Ideal.hostDivf_def, Ideal.maximumf_def,
    Ideal.minimumf_def, Ideal.hostUnary_sign_def, Ideal.hostUnary_sqrt_def]
  rfl

/-! ## The output unit: 64 → 1 -/

/-- The contraction reads row `r` of the last hidden layer at column `k`. -/
theorem left5 (r : Fin 32768) (k : Fin 64) :
    lidx_main_v105 (ix2 r (0 : Fin 1)) k = ix2 r k :=
  funext fun a => Fin.ext (by match a with | ⟨0, _⟩ => rfl | ⟨1, _⟩ => rfl)

/-- The contraction reads the transposed output weights at `(k, 0)`, that is the weights at `(0, k)`. -/
theorem right5 (r : Fin 32768) (k : Fin 64) :
    idx_main_v104 (ridx_main_v105 (ix2 r (0 : Fin 1)) k) = ix2 (0 : Fin 1) k :=
  funext fun a => Fin.ext (by match a with | ⟨0, _⟩ => rfl | ⟨1, _⟩ => rfl)

/-- The output bias, broadcast along the rows, is read at its one position. -/
theorem bias5 (r : Fin 32768) :
    idx_main_v106 (idx_main_v107 (ix2 r (0 : Fin 1))) = ix1 (0 : Fin 1) :=
  funext fun a => Fin.ext (by match a with | ⟨0, _⟩ => rfl)

/-- The reference's result at row `r`: the logistic output unit on the fourth hidden row. -/
theorem out_unit (r : Fin 32768) :
    val_main_v114 (F := Ideal) x0 x1 x2 x3 x4 x5 x6 x7 x8 x9 x10 x11 x12 x13 x14 x15 x16 x17 x18 x19 x20 x21 x22 x23 x24 x25 x26 (ix2 r (0 : Fin 1))
      = outR (row4 x0 x1 x2 x3 x4 x5 x6 x7 x8 x11 x12 x13 x14 x15 x16 x17 x18 x19 x20 x21 x22 x23 x24 x25 x26 r) (fun k : Fin 64 => x9 (ix2 (0 : Fin 1) k)) (x10 (ix1 (0 : Fin 1))) := by
  simp only [val_main_v114_apply, val_main_v113_apply, val_main_cst_20_apply, val_main_v112_apply, val_main_v111_apply, val_main_cst_19_apply, val_main_v110_apply, val_main_v109_apply, val_main_v108_apply, val_main_v107_apply, val_main_v106_apply, val_main_v105_apply, val_main_v104_apply,
    left5, right5, bias5, layer4,
    Ideal.ofBits_def, Ideal.addf_def, Ideal.hostDivf_def, Ideal.hostUnary_exp_def, Ideal.hostNegf_def, Ideal.negf_def]
  rfl

/-! ## The whole reference -/

/-- The reference program's result array is the layered network applied to every row of the input. -/
theorem ref_is_GR :
    val_main_v114 (F := Ideal) x0 x1 x2 x3 x4 x5 x6 x7 x8 x9 x10 x11 x12 x13 x14 x15 x16 x17 x18 x19 x20 x21 x22 x23 x24 x25 x26
      = GR x0 x1 x2 x3 x4 x5 x6 x7 x8 x9 x10 x11 x12 x13 x14 x15 x16 x17 x18 x19 x20 x21 x22 x23 x24 x25 x26 := by
  funext i
  obtain ⟨r, q, rfl⟩ : ∃ (r : Fin 32768) (q : Fin 1), i = ix2 r q := ⟨i 0, i 1, eq_ix2 i⟩
  obtain rfl : q = 0 := Subsingleton.elim q 0
  rw [out_unit]
  rfl

end Cert.BinMlp.Ref

end
-- ==== Proof.PreFacts.lean ====
/-
  The precondition, decoded.

  The precondition of the two programs is one bit: the conjunction, over the 27 argument arrays, of
  "every entry x has |x| < +∞", and, for the four variance arrays, of "every entry v has v ≥ 0". Each conjunct
  is an "and" over all entries of an array of bits, each bit one comparison; the whole is 1 exactly when every
  comparison holds.

  Over the extended reals |x| is max x (−x), and the word the comparison is made against denotes ⊤. At x = ⊤ and at
  x = ⊥ the maximum is ⊤, which is not below ⊤; so |x| < ⊤ leaves x a real number. The other comparison is against
  the zero word, which denotes 0, and says 0 ≤ v as it stands.

  Two lemmas, each for an array of any shape, read one conjunct back: a finiteness conjunct says every entry is
  real, a sign conjunct says every entry is non-negative. The theorem splits the conjunction and applies the first
  27 times and the second 4 times.
-/
import proofs.«150261_j33036888441373_2_alg».proof.Pre_finite_inputs
import proofs.«150261_j33036888441373_2_alg».proof.Proof.Gen.Pre_finite_inputs
import proofs.«150261_j33036888441373_2_alg».proof.Proof.Net
import Idealize.ShloMosaic.Lib.ReduceAll
import Idealize.ShloMosaic.Lib.ValueIdx
import Idealize.ShloMosaic.PureOps.Ideal.Laws

noncomputable section

namespace Cert.BinMlp

open Idealize.ShloMosaic Idealize.ShloMosaic.ValueIdx
open Cert.Pre_finite_inputs (S_)

/-- The result of every conjunct is a single bit: the rank-0 shape has one index. -/
instance subsingleton_S_ : Subsingleton S_.Idx := ⟨fun a b => funext fun d => d.elim0⟩

/-- The word the finiteness comparison is made against denotes +∞. -/
theorem infW_eq : Ideal.ofBits .f32 0x7F800000#32 = (⊤ : EReal) := by
  simp [Ideal.ofBits, Ideal.ieee]

/-- |x| < +∞ leaves x a real: at either infinity max x (−x) is ⊤. -/
theorem real_of_abs_lt_inf (x : EReal)
    (h : Ideal.cmp .olt (max x (-x)) (Ideal.ofBits .f32 0x7F800000#32) = 1#1) : ∃ r : ℝ, x = (r : EReal) := by
  rw [infW_eq] at h
  unfold Ideal.cmp at h
  induction x using EReal.rec with
  | bot => simp at h
  | coe r => exact ⟨r, rfl⟩
  | top => simp at h

/-- v ≥ 0 against the zero word is 0 ≤ v. -/
theorem nonneg_of_ge_zero (x : EReal)
    (h : Ideal.cmp .oge x (Ideal.ofBits .f32 0x00000000#32) = 1#1) : 0 ≤ x := by
  rw [Ideal.ofBits_zero_f32] at h
  unfold Ideal.cmp at h
  by_contra hx
  simp [hx] at h

/-- A finiteness conjunct, for an array of any shape: if the "and" over all entries of |x| < +∞ is 1, every entry
    of x is a real number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf x) (broadcastInDim s ![] hb (constant S_ .f32 0x7F800000#32))) init hr hu j = 1#1) :
    IsReal x := fun i =>
  real_of_abs_lt_inf (x i) (Host.reduce_andi_all _ init hr hu j e i)

/-- A sign conjunct, for an array of any shape: if the "and" over all entries of v ≥ 0 is 1, every entry of v is
    non-negative. -/
theorem nonneg_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .oge x (broadcastInDim s ![] hb (constant S_ .f32 0x00000000#32))) init hr hu j = 1#1) :
    ∀ i, 0 ≤ x i := fun i =>
  nonneg_of_ge_zero (x i) (Host.reduce_andi_all _ init hr hu j e i)

/-- What the precondition says of the 27 argument arrays, in the programs' argument order: every array is
    real-valued, and the four variance arrays (arguments 14, 18, 22 and 26) are non-negative. -/
structure ArgFacts (x0 : A2 32768 64) (x1 : A2 2048 64) (x2 : A1 2048) (x3 : A2 1024 2048) (x4 : A1 1024)
    (x5 : A2 512 1024) (x6 : A1 512) (x7 : A2 64 512) (x8 : A1 64) (x9 : A2 1 64) (x10 : A1 1)
    (x11 x12 x13 x14 : A1 2048) (x15 x16 x17 x18 : A1 1024) (x19 x20 x21 x22 : A1 512) (x23 x24 x25 x26 : A1 64) : Prop where
  r0 : IsReal x0
  r1 : IsReal x1
  r2 : IsReal x2
  r3 : IsReal x3
  r4 : IsReal x4
  r5 : IsReal x5
  r6 : IsReal x6
  r7 : IsReal x7
  r8 : IsReal x8
  r9 : IsReal x9
  r10 : IsReal x10
  r11 : IsReal x11
  r12 : IsReal x12
  r13 : IsReal x13
  r14 : IsReal x14
  r15 : IsReal x15
  r16 : IsReal x16
  r17 : IsReal x17
  r18 : IsReal x18
  r19 : IsReal x19
  r20 : IsReal x20
  r21 : IsReal x21
  r22 : IsReal x22
  r23 : IsReal x23
  r24 : IsReal x24
  r25 : IsReal x25
  r26 : IsReal x26
  p14 : ∀ i, 0 ≤ x14 i
  p18 : ∀ i, 0 ≤ x18 i
  p22 : ∀ i, 0 ≤ x22 i
  p26 : ∀ i, 0 ≤ x26 i

open Cert.Pre_finite_inputs in
/-- The precondition gives the facts: its one bit is the left-nested conjunction of the 31 conjuncts, in the order
    of the arguments, the four sign conjuncts last. -/
theorem argFacts_of_pre [Cert.Pre_finite_inputs.Facts] (x0 : A2 32768 64) (x1 : A2 2048 64) (x2 : A1 2048) (x3 : A2 1024 2048) (x4 : A1 1024)
    (x5 : A2 512 1024) (x6 : A1 512) (x7 : A2 64 512) (x8 : A1 64) (x9 : A2 1 64) (x10 : A1 1)
    (x11 x12 x13 x14 : A1 2048) (x15 x16 x17 x18 : A1 1024) (x19 x20 x21 x22 : A1 512) (x23 x24 x25 x26 : A1 64)
    (h : Cert.Pre_finite_inputs.fn (F := Ideal) x0 x1 x2 x3 x4 x5 x6 x7 x8 x9 x10 x11 x12 x13 x14 x15 x16 x17 x18 x19 x20 x21 x22 x23 x24 x25 x26 = fun _ => 1#1) :
    ArgFacts x0 x1 x2 x3 x4 x5 x6 x7 x8 x9 x10 x11 x12 x13 x14 x15 x16 x17 x18 x19 x20 x21 x22 x23 x24 x25 x26 := by
  have e := congrFun h ix0
  simp only [fn, fn_part1, fn_part2, fn_part3, fn_part4, fn_part5, fn_part6, fn_part7, fn_part8, andi,
    IntOp.andi_eq_one] at e
  obtain ⟨⟨⟨⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩, h30⟩ := e
  exact {
    r0 := isReal_of_all x0 _ _ _ _ _ h0
    r1 := isReal_of_all x1 _ _ _ _ _ h1
    r2 := isReal_of_all x2 _ _ _ _ _ h2
    r3 := isReal_of_all x3 _ _ _ _ _ h3
    r4 := isReal_of_all x4 _ _ _ _ _ h4
    r5 := isReal_of_all x5 _ _ _ _ _ h5
    r6 := isReal_of_all x6 _ _ _ _ _ h6
    r7 := isReal_of_all x7 _ _ _ _ _ h7
    r8 := isReal_of_all x8 _ _ _ _ _ h8
    r9 := isReal_of_all x9 _ _ _ _ _ h9
    r10 := isReal_of_all x10 _ _ _ _ _ h10
    r11 := isReal_of_all x11 _ _ _ _ _ h11
    r12 := isReal_of_all x12 _ _ _ _ _ h12
    r13 := isReal_of_all x13 _ _ _ _ _ h13
    r14 := isReal_of_all x14 _ _ _ _ _ h14
    r15 := isReal_of_all x15 _ _ _ _ _ h15
    r16 := isReal_of_all x16 _ _ _ _ _ h16
    r17 := isReal_of_all x17 _ _ _ _ _ h17
    r18 := isReal_of_all x18 _ _ _ _ _ h18
    r19 := isReal_of_all x19 _ _ _ _ _ h19
    r20 := isReal_of_all x20 _ _ _ _ _ h20
    r21 := isReal_of_all x21 _ _ _ _ _ h21
    r22 := isReal_of_all x22 _ _ _ _ _ h22
    r23 := isReal_of_all x23 _ _ _ _ _ h23
    r24 := isReal_of_all x24 _ _ _ _ _ h24
    r25 := isReal_of_all x25 _ _ _ _ _ h25
    r26 := isReal_of_all x26 _ _ _ _ _ h26
    p14 := nonneg_of_all x14 _ _ _ _ _ h27
    p18 := nonneg_of_all x18 _ _ _ _ _ h28
    p22 := nonneg_of_all x22 _ _ _ _ _ h29
    p26 := nonneg_of_all x26 _ _ _ _ _ h30 }

/-- Under the precondition the layered and the folded forms of the batch agree. -/
theorem G_eq_of_pre [Cert.Pre_finite_inputs.Facts] (x0 : A2 32768 64) (x1 : A2 2048 64) (x2 : A1 2048) (x3 : A2 1024 2048) (x4 : A1 1024)
    (x5 : A2 512 1024) (x6 : A1 512) (x7 : A2 64 512) (x8 : A1 64) (x9 : A2 1 64) (x10 : A1 1)
    (x11 x12 x13 x14 : A1 2048) (x15 x16 x17 x18 : A1 1024) (x19 x20 x21 x22 : A1 512) (x23 x24 x25 x26 : A1 64)
    (h : Cert.Pre_finite_inputs.fn (F := Ideal) x0 x1 x2 x3 x4 x5 x6 x7 x8 x9 x10 x11 x12 x13 x14 x15 x16 x17 x18 x19 x20 x21 x22 x23 x24 x25 x26 = fun _ => 1#1) :
    GR x0 x1 x2 x3 x4 x5 x6 x7 x8 x9 x10 x11 x12 x13 x14 x15 x16 x17 x18 x19 x20 x21 x22 x23 x24 x25 x26 = GK x0 x1 x2 x3 x4 x5 x6 x7 x8 x9 x10 x11 x12 x13 x14 x15 x16 x17 x18 x19 x20 x21 x22 x23 x24 x25 x26 :=
  have F := argFacts_of_pre x0 x1 x2 x3 x4 x5 x6 x7 x8 x9 x10 x11 x12 x13 x14 x15 x16 x17 x18 x19 x20 x21 x22 x23 x24 x25 x26 h
  G_eq x0 x1 x2 x3 x4 x5 x6 x7 x8 x9 x10 x11 x12 x13 x14 x15 x16 x17 x18 x19 x20 x21 x22 x23 x24 x25 x26 F.r0 F.r1 F.r2 F.r3 F.r4 F.r5 F.r6 F.r7 F.r8
    F.r11 F.r12 F.r13 F.r14 F.p14 F.r15 F.r16 F.r17 F.r18 F.p18 F.r19 F.r20 F.r21 F.r22 F.p22
    F.r23 F.r24 F.r25 F.r26 F.p26

end Cert.BinMlp

end
-- ==== Proof.lean ====
/-
  The certificate of a binarized multilayer perceptron (64 → 2048 → 1024 → 512 → 64 → 1 over 32768 rows, batch
  normalisation in evaluation mode, hard tanh and one-bit activation quantisation) against its layer-by-layer reference.

  Both programs compute, for every input row, the same function over the extended reals. The kernel folds each
  normalised layer into a scale  s = g · rsqrt (v + ε)  and a shift  t = (b − mu) · s + be  and takes the bit
  P · s + t > 0  of the pre-activation  P = ∑ k, h k · sign (W j k);  the reference applies  ((P + b) − mu) · (g / √(v + ε)) + be,
  clips to [−1, 1], then to [0, 1], and takes  c + (sign c − c).  For real data and non-negative running variances the
  scale is one real number, the two affine forms differ by distributivity over reals, and the bit of a clipped value
  is one exactly when the normalised value is positive (Net.lean). The precondition says exactly that: every input
  finite and every variance ≥ 0 — outside it the reference's own quotient by √(v + ε) is infinite or undefined.

  The kernel side: the body's stored block, read at a row, is the output unit on four folded layers of that row
  (KernelPay.lean); the arrays staged for it are the signed transposed weights and the folded scale and shift rows
  of the arguments (KernelHost.lean); the 64 row blocks tile the result (KernelBlocks.lean). The reference side: its
  host operations, composed and read at an entry, are the layered form (RefRead.lean). The precondition read entry by
  entry gives the realness and sign hypotheses (PreFacts.lean).

  The one rewrite the idealised kernel carries — widening back the narrowed last hidden activations — is the identity
  over the extended reals: the preserves conjunct.
-/
import proofs.«150261_j33036888441373_2_alg».proof.Defs
import proofs.«150261_j33036888441373_2_alg».proof.Proof.Gen.Kernel
import proofs.«150261_j33036888441373_2_alg».proof.Proof.Gen.Kernel.Frame
import proofs.«150261_j33036888441373_2_alg».proof.Proof.Gen.KernelIdeal
import proofs.«150261_j33036888441373_2_alg».proof.Proof.Gen.KernelIdeal.Frame
import proofs.«150261_j33036888441373_2_alg».proof.Proof.Gen.ReferenceIdeal
import proofs.«150261_j33036888441373_2_alg».proof.Proof.Gen.Pre_finite_inputs
import proofs.«150261_j33036888441373_2_alg».proof.Proof.Gen.ReferenceIdeal.Run
import proofs.«150261_j33036888441373_2_alg».proof.Proof.Gen.ReferenceIdeal.Read
import proofs.«150261_j33036888441373_2_alg».proof.Proof.KernelBlocks
import proofs.«150261_j33036888441373_2_alg».proof.Proof.RefRead
import proofs.«150261_j33036888441373_2_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing the last hidden activations to half width and widening them back is the identity on extended reals. -/
theorem preserves : Cert.preserves_Kernel_KernelIdeal :=
  IdealRules.truncf_extf.statement Cert.KernelIdeal.S512x64 .f32 .bf16

/-- From memories agreeing on the arguments the kernel's result array ends at the folded form of the network and the
    reference's at the layered form, row by row; under the precondition the two forms are one function. -/
theorem algebraic : Cert.algebraic_KernelIdeal_ReferenceIdeal := by
  intro m ρ m' ρ' hpre hagree
  refine ⟨fun c => Cert.BinMlp.GKm m c, Cert.BinMlp.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21, a22, a23, a24, a25, a26⟩ := hagree c
  rw [Cert.ReferenceIdeal.Read.val_main_v114_eq, Cert.BinMlp.Ref.ref_is_GR, a0, a1, a2, a3, a4, a5, a6, a7, a8, a9, a10, a11, a12, a13, a14, a15, a16, a17, a18, a19, a20, a21, a22, a23, a24, a25, a26]
  exact Cert.BinMlp.G_eq_of_pre _ _ _ _ _ _ _ _ _ _ _ _ _ _ _ _ _ _ _ _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
